-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x7 : Shape := ⟨2, ![256, 7]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x7 : S_.BroadcastsInDim S256x7 (![] : Fin 0 → Fin S256x7.rank)
  reducesTo_S256x7_S_d0_1 : S256x7.ReducesTo [0, 1] S_

variable [Facts]

def fn {F : FTy → Type} [FloatOps F] (main_arg0 : FVec F S32x256x56x56 .f32) (main_arg1 : FVec F S256x7 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S256x7 .f32 := Host.absf main_arg1
  let main_cst_0 : FVec F S_ .f32 := constant S_ .f32 0x7F800000#32
  let main_v5 : FVec F S256x7 .f32 := broadcastInDim S256x7 ![] bcast_S_S256x7 main_cst_0
  let main_v6 : IVec S256x7 1 := cmpf .olt main_v4 main_v5
  let main_c_1 : IVec S_ 1 := constantI S_ 1 1#1
  let main_v7 : IVec S_ 1 := (fun x v => Host.reduce IntOp.andi x v reducesTo_S256x7_S_d0_1 h_S_) main_v6 main_c_1
  let main_v8 : IVec S_ 1 := andi main_v3 main_v7
  main_v8
-- ==== Kernel.lean ====
abbrev S32x256x56x56 : Shape := ⟨4, ![32, 256, 56, 56]⟩
abbrev S256x7 : Shape := ⟨2, ![256, 7]⟩
abbrev S256x6 : Shape := ⟨2, ![256, 6]⟩
abbrev S32x256x3136 : Shape := ⟨3, ![32, 256, 3136]⟩
abbrev S1x256x3136 : Shape := ⟨3, ![1, 256, 3136]⟩
abbrev S256x3136 : Shape := ⟨2, ![256, 3136]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S256x6, .f32⟩
  | .hbm, ⟨3, _⟩ => ⟨S256x6, .f32⟩
  | .hbm, ⟨4, _⟩ => ⟨S256x6, .f32⟩
  | .hbm, ⟨5, _⟩ => ⟨S256x6, .f32⟩
  | .hbm, ⟨6, _⟩ => ⟨S32x256x3136, .f32⟩
  | .hbm, ⟨7, _⟩ => ⟨S32x256x3136, .f32⟩
  | .hbm, ⟨8, _⟩ => ⟨S32x256x56x56, .f32⟩
  | .local _ .vmem, ⟨0, _⟩ => ⟨S1x256x3136, .f32⟩
  | .local _ .vmem, ⟨1, _⟩ => ⟨S1x256x3136, .f32⟩
  | .local _ .vmem, ⟨2, _⟩ => ⟨S256x6, .f32⟩
  | .local _ .vmem, ⟨3, _⟩ => ⟨S256x6, .f32⟩
  | .local _ .vmem, ⟨4, _⟩ => ⟨S1x256x3136, .f32⟩
  | .local _ .vmem, ⟨5, _⟩ => ⟨S1x256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x7_S256x6_0_0 : S256x7.Slices ![0, 0] S256x6
  slices_S256x7_S256x6_0_1 : S256x7.Slices ![0, 1] S256x6
  shapeCasts_S32x256x56x56_S32x256x3136 : S32x256x56x56.ShapeCasts S32x256x3136
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  inb_S256x6_S256x1_0_0 : ∀ a, (![0, 0] : Fin 2 → Nat) a + S256x1.size a ≤ S256x6.size a
  h_S256x1 : 0 < S256x1.numel
  shapeCasts_S256x1_S256x1 : S256x1.ShapeCasts S256x1
  broadcasts_S256x1_S256x3136 : S256x1.Broadcasts S256x3136
  inb_S256x6_S256x1_0_1 : ∀ a, (![0, 1] : Fin 2 → Nat) a + S256x1.size a ≤ S256x6.size a
  inb_S256x6_S256x1_0_2 : ∀ a, (![0, 2] : Fin 2 → Nat) a + S256x1.size a ≤ S256x6.size a
  inb_S256x6_S256x1_0_3 : ∀ a, (![0, 3] : Fin 2 → Nat) a + S256x1.size a ≤ S256x6.size a
  inb_S256x6_S256x1_0_4 : ∀ a, (![0, 4] : Fin 2 → Nat) a + S256x1.size a ≤ S256x6.size a
  inb_S256x6_S256x1_0_5 : ∀ a, (![0, 5] : Fin 2 → Nat) a + S256x1.size a ≤ S256x6.size a
  shapeCasts_S256x3136_S1x256x3136 : S256x3136.ShapeCasts S1x256x3136
  shapeCasts_S32x256x3136_S32x256x56x56 : S32x256x3136.ShapeCasts S32x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S32x256x3136.size a
  hwx0_0 : ∀ i : grid0.Coords, EltTy.bits .f32 = 32 ∨ (Rect.block (s := S32x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x6.size a ≤ S256x6.size a
  hwx0_1 : ∀ i : grid0.Coords, EltTy.bits .f32 = 32 ∨ (Rect.block (s := S256x6) S256x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x6.size a ≤ S256x6.size a
  hwx0_2 : ∀ i : grid0.Coords, EltTy.bits .f32 = 32 ∨ (Rect.block (s := S256x6) S256x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x3136.size a ≤ S32x256x3136.size a
  hwx0_3 : ∀ i : grid0.Coords, EltTy.bits .f32 = 32 ∨ (Rect.block (s := S32x256x3136) S1x256x3136.size (cc0_transform_3 i) (hinb0_3 i)).WholeWords (EltTy.packing .f32)

variable [Facts₀]

abbrev win0_0 : Pipeline.Window sig grid0 :=
  Pipeline.Window.ofSpec (Memref.whole main_v4) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x7 : Shape := ⟨2, ![256, 7]⟩
abbrev S_ : Shape := ⟨0, ![]⟩
abbrev S256 : Shape := ⟨1, ![256]⟩
abbrev S1x256x1x1 : Shape := ⟨4, ![1, 256, 1, 1]⟩
abbrev S256x6 : Shape := ⟨2, ![256, 6]⟩
abbrev S1536 : Shape := ⟨1, ![1536]⟩
abbrev S32x256x56x56x1 : Shape := ⟨5, ![32, 256, 56, 56, 1]⟩
abbrev S1 : Shape := ⟨1, ![1]⟩
abbrev S1x1x1x1x1 : Shape := ⟨5, ![1, 1, 1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x7, .f32⟩
  | .hbm, ⟨2, _⟩ => ⟨S_, .f32⟩
  | .hbm, ⟨3, _⟩ => ⟨S32x256x56x56, .f32⟩
  | .hbm, ⟨4, _⟩ => ⟨S32x256x56x56, .f32⟩
  | .hbm, ⟨5, _⟩ => ⟨S_, .f32⟩
  | .hbm, ⟨6, _⟩ => ⟨S32x256x56x56, .f32⟩
  | .hbm, ⟨7, _⟩ => ⟨S32x256x56x56, .f32⟩
  | .hbm, ⟨8, _⟩ => ⟨S_, .f32⟩
  | .hbm, ⟨9, _⟩ => ⟨S_, .i32⟩
  | .hbm, ⟨10, _⟩ => ⟨S_, .f32⟩
  | .hbm, ⟨11, _⟩ => ⟨S32x256x56x56, .f32⟩
  | .hbm, ⟨12, _⟩ => ⟨S32x256x56x56, .f32⟩
  | .hbm, ⟨13, _⟩ => ⟨S_, .f32⟩
  | .hbm, ⟨14, _⟩ => ⟨S32x256x56x56, .f32⟩
  | .hbm, ⟨15, _⟩ => ⟨S32x256x56x56, .f32⟩
  | .hbm, ⟨16, _⟩ => ⟨S32x256x56x56, .i32⟩
  | .hbm, ⟨17, _⟩ => ⟨S32x256x56x56, .f32⟩
  | .hbm, ⟨18, _⟩ => ⟨S32x256x56x56, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S1x256x1x1, .i32⟩
  | .hbm, ⟨24, _⟩ => ⟨S32x256x56x56, .i32⟩
  | .hbm, ⟨25, _⟩ => ⟨S32x256x56x56, .i32⟩
  | .hbm, ⟨26, _⟩ => ⟨S256x6, .f32⟩
  | .hbm, ⟨27, _⟩ => ⟨S1536, .f32⟩
  | .hbm, ⟨28, _⟩ => ⟨S256x6, .f32⟩
  | .hbm, ⟨29, _⟩ => ⟨S256x6, .f32⟩
  | .hbm, ⟨30, _⟩ => ⟨S256x6, .f32⟩
  | .hbm, ⟨31, _⟩ => ⟨S1536, .f32⟩
  | .hbm, ⟨32, _⟩ => ⟨S_, .i32⟩
  | .hbm, ⟨33, _⟩ => ⟨S32x256x56x56, .i32⟩
  | .hbm, ⟨34, _⟩ => ⟨S32x256x56x56, .i1⟩
  | .hbm, ⟨35, _⟩ => ⟨S_, .i32⟩
  | .hbm, ⟨36, _⟩ => ⟨S32x256x56x56, .i32⟩
  | .hbm, ⟨37, _⟩ => ⟨S32x256x56x56, .i32⟩
  | .hbm, ⟨38, _⟩ => ⟨S32x256x56x56, .i32⟩
  | .hbm, ⟨39, _⟩ => ⟨S32x256x56x56x1, .i32⟩
  | .hbm, ⟨40, _⟩ => ⟨S1, .i32⟩
  | .hbm, ⟨41, _⟩ => ⟨S_, .i32⟩
  | .hbm, ⟨42, _⟩ => ⟨S32x256x56x56x1, .i32⟩
  | .hbm, ⟨43, _⟩ => ⟨S32x256x56x56x1, .i1⟩
  | .hbm, ⟨44, _⟩ => ⟨S1x1x1x1x1, .i32⟩
  | .hbm, ⟨45, _⟩ => ⟨S32x256x56x56x1, .i32⟩
  | .hbm, ⟨46, _⟩ => ⟨S32x256x56x56x1, .i1⟩
  | .hbm, ⟨47, _⟩ => ⟨S32x256x56x56x1, .i1⟩
  | .hbm, ⟨48, _⟩ => ⟨S_, .i1⟩
  | .hbm, ⟨49, _⟩ => ⟨S32x256x56x56, .i1⟩
  | .hbm, ⟨50, _⟩ => ⟨S32x256x56x56, .f32⟩
  | .hbm, ⟨51, _⟩ => ⟨S_, .f32⟩
  | .hbm, ⟨52, _⟩ => ⟨S32x256x56x56, .f32⟩
  | .hbm, ⟨53, _⟩ => ⟨S32x256x56x56, .f32⟩
  | .hbm, ⟨54, _⟩ => ⟨S_, .i32⟩
  | .hbm, ⟨55, _⟩ => ⟨S32x256x56x56, .i32⟩
  | .hbm, ⟨56, _⟩ => ⟨S32x256x56x56, .i1⟩
  | .hbm, ⟨57, _⟩ => ⟨S_, .i32⟩
  | .hbm, ⟨58, _⟩ => ⟨S32x256x56x56, .i32⟩
  | .hbm, ⟨59, _⟩ => ⟨S32x256x56x56, .i32⟩
  | .hbm, ⟨60, _⟩ => ⟨S32x256x56x56, .i32⟩
  | .hbm, ⟨61, _⟩ => ⟨S32x256x56x56x1, .i32⟩
  | .hbm, ⟨62, _⟩ => ⟨S1, .i32⟩
  | .hbm, ⟨63, _⟩ => ⟨S_, .i32⟩
  | .hbm, ⟨64, _⟩ => ⟨S32x256x56x56x1, .i32⟩
  | .hbm, ⟨65, _⟩ => ⟨S32x256x56x56x1, .i1⟩
  | .hbm, ⟨66, _⟩ => ⟨S1x1x1x1x1, .i32⟩
  | .hbm, ⟨67, _⟩ => ⟨S32x256x56x56x1, .i32⟩
  | .hbm, ⟨68, _⟩ => ⟨S32x256x56x56x1, .i1⟩
  | .hbm, ⟨69, _⟩ => ⟨S32x256x56x56x1, .i1⟩
  | .hbm, ⟨70, _⟩ => ⟨S_, .i1⟩
  | .hbm, ⟨71, _⟩ => ⟨S32x256x56x56, .i1⟩
  | .hbm, ⟨72, _⟩ => ⟨S32x256x56x56, .f32⟩
  | .hbm, ⟨73, _⟩ => ⟨S_, .f32⟩
  | .hbm, ⟨74, _⟩ => ⟨S32x256x56x56, .f32⟩
  | .hbm, ⟨75, _⟩ => ⟨S32x256x56x56, .f32⟩
  | .hbm, ⟨76, _⟩ => ⟨S32x256x56x56, .f32⟩
  | .hbm, ⟨77, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v20 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_cst : Ref sig .tc := ⟨.hbm, 73, rfl⟩
abbrev main_call2_v14 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩

abbrev nD : Nat := 1
abbrev τ : Topo := Topo.v7x

variable {F : FTy → Type} [FloatOps F]

class Facts₀ : Prop where
  bcast_S_S32x256x56x56 : S_.BroadcastsInDim S32x256x56x56 (![] : Fin 0 → Fin S32x256x56x56.rank)
  bcast_S_S256 : S_.BroadcastsInDim S256 (![] : Fin 0 → Fin S256.rank)
  shapeCasts_S256_S1x256x1x1 : S256.ShapeCasts S1x256x1x1
  bcast_S1x256x1x1_S32x256x56x56_0_1_2_3 : S1x256x1x1.BroadcastsInDim S32x256x56x56 (![0, 1, 2, 3] : Fin 4 → Fin S32x256x56x56.rank)
  slices_S256x7_S256x6_0_0 : S256x7.Slices ![0, 0] S256x6
  shapeCasts_S256x6_S1536 : S256x6.ShapeCasts S1536
  slices_S256x7_S256x6_0_1 : S256x7.Slices ![0, 1] S256x6
  bcast_S32x256x56x56_S32x256x56x56x1_0_1_2_3 : S32x256x56x56.BroadcastsInDim S32x256x56x56x1 (![0, 1, 2, 3] : Fin 4 → Fin S32x256x56x56x1.rank)
  bcast_S_S32x256x56x56x1 : S_.BroadcastsInDim S32x256x56x56x1 (![] : Fin 0 → Fin S32x256x56x56x1.rank)
  bcast_S1_S1x1x1x1x1_4 : S1.BroadcastsInDim S1x1x1x1x1 (![4] : Fin 1 → Fin S1x1x1x1x1.rank)
  bcast_S1x1x1x1x1_S32x256x56x56x1_0_1_2_3_4 : S1x1x1x1x1.BroadcastsInDim S32x256x56x56x1 (![0, 1, 2, 3, 4] : Fin 5 → Fin S32x256x56x56x1.rank)
  reducesTo_S32x256x56x56x1_S32x256x56x56_d4 : S32x256x56x56x1.ReducesTo [4] S32x256x56x56
  h_S_ : 0 < S_.numel
  gather_S1536_S32x256x56x56x1_S32x256x56x56_n_0_n_n_0_4_1_wf : GatherDims.WF S1536 S32x256x56x56x1 S32x256x56x56 [] [0] [] [0] [] 4 ![1]

variable [Facts₀]

def gather_S1536_S32x256x56x56x1_S32x256x56x56_n_0_n_n_0_4_1 : GatherDims S1536 S32x256x56x56x1 S32x256x56x56 where
  offsetDims := []
  collapsedSliceDims := [0]
  operandBatchingDims := []
  startIndicesBatchingDims := []
  startIndexMap := [0]
  indexVectorDim := 4
  sliceSizes := ![1]
  wf := gather_S1536_S32x256x56x56x1_S32x256x56x56_n_0_n_n_0_4_1_wf

class Facts : Prop extends Facts₀ where

variable [Facts]
-- ==== Proof.RefRun.lean ====
/-
  The reference program's run, read back. Its @main is a straight line of host operations once the three outlined
  functions (the clip to [0, 5], and twice the table lookup with its wrap-around and in-range mask) are put at their
  call sites: seventy-six operations, each writing a buffer of its own. Every weakly fair execution therefore ends with
  the result buffer at the operations' composed pure term of the two argument arrays, which is stated here in named
  stages: the normalized coordinate, its clip, the bin (truncation to an integer), the distance into the bin, the
  flattened table index bin + 6·channel, the two flattened tables (left points and differences of neighbouring
  points), the lookup, and left + distance · difference.
-/
import proofs.«146327_j84756884619350_2_alg».proof.Proof.Gen.ReferenceIdeal
import Idealize.ShloMosaic.Lib.StableHlo.Run

noncomputable section

namespace Cert.Pwlu.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages of the reference's value -/

/-- (x + 2.7f) / 0.9f, entry by entry. -/
def xn (x : FVec F S32x256x56x56 .f32) : FVec F S32x256x56x56 .f32 :=
  Host.divf (addf x (broadcastInDim S32x256x56x56 ![] bcast_S_S32x256x56x56 (constant S_ .f32 0x402CCCCD#32)))
    (broadcastInDim S32x256x56x56 ![] bcast_S_S32x256x56x56 (constant S_ .f32 0x3F666666#32))

/-- min(5, max(0, ·)) of the normalized coordinate: the 5 is the integer 5 converted. -/
def clipped (x : FVec F S32x256x56x56 .f32) : FVec F S32x256x56x56 .f32 :=
  minimumf (broadcastInDim S32x256x56x56 ![] bcast_S_S32x256x56x56 (sitofp .f32 (constantI S_ 32 5#32)))
    (maximumf (broadcastInDim S32x256x56x56 ![] bcast_S_S32x256x56x56 (constant S_ .f32 0x00000000#32)) (xn x))

/-- The bin of each entry: the clipped coordinate truncated to a 32-bit integer. -/
def regions (x : FVec F S32x256x56x56 .f32) : IVec S32x256x56x56 32 := fptosi 32 (clipped x)

/-- The distance of the coordinate from its bin's left end. -/
def dists (x : FVec F S32x256x56x56 .f32) : FVec F S32x256x56x56 .f32 := subf (xn x) (sitofp .f32 (regions x))

/-- 6 · channel, spread over the whole array. -/
def offs : IVec S32x256x56x56 32 :=
  broadcastInDim S32x256x56x56 ![0, 1, 2, 3] bcast_S1x256x1x1_S32x256x56x56_0_1_2_3
    (shapeCast S1x256x1x1 (muli (iotaInDim S256 32 0) (broadcastInDim S256 ![] bcast_S_S256 (constantI S_ 32 6#32))) shapeCasts_S256_S1x256x1x1)

/-- The index into the flattened tables: bin + 6 · channel. -/
def idx (x : FVec F S32x256x56x56 .f32) : IVec S32x256x56x56 32 := addi (regions x) offs

/-- Columns 0..5 of the points, flattened row-major: the bins' left points. -/
def leftTbl (pts : FVec F S256x7 .f32) : FVec F S1536 .f32 :=
  shapeCast S1536 (extractStridedSlice S256x6 ![0, 0] pts slices_S256x7_S256x6_0_0) shapeCasts_S256x6_S1536

/-- Columns 1..6 minus columns 0..5 of the points, flattened row-major: the bins' rises. -/
def diffTbl (pts : FVec F S256x7 .f32) : FVec F S1536 .f32 :=
  shapeCast S1536 (subf (extractStridedSlice S256x6 ![0, 1] pts slices_S256x7_S256x6_0_1)
    (extractStridedSlice S256x6 ![0, 0] pts slices_S256x7_S256x6_0_0)) shapeCasts_S256x6_S1536

/-- A negative index wrapped by the table's length. -/
def wrapped (ix : IVec S32x256x56x56 32) : IVec S32x256x56x56 32 :=
  select (cmpi .slt ix (broadcastInDim S32x256x56x56 ![] bcast_S_S32x256x56x56 (constantI S_ 32 0#32)))
    (addi ix (broadcastInDim S32x256x56x56 ![] bcast_S_S32x256x56x56 (constantI S_ 32 1536#32))) ix

/-- The wrapped index with a trailing unit axis, as the gather takes it. -/
def wrapped5 (ix : IVec S32x256x56x56 32) : IVec S32x256x56x56x1 32 :=
  broadcastInDim S32x256x56x56x1 ![0, 1, 2, 3] bcast_S32x256x56x56_S32x256x56x56x1_0_1_2_3 (wrapped ix)

/-- Entry by entry: 0 ≤ the wrapped index ≤ 1535. -/
def rangeMask (ix : IVec S32x256x56x56 32) : IVec S32x256x56x56x1 1 :=
  andi (cmpi .sge (wrapped5 ix) (broadcastInDim S32x256x56x56x1 ![] bcast_S_S32x256x56x56x1 (constantI S_ 32 0#32)))
    (cmpi .sle (wrapped5 ix) (broadcastInDim S32x256x56x56x1 ![0, 1, 2, 3, 4] bcast_S1x1x1x1x1_S32x256x56x56x1_0_1_2_3_4
      (broadcastInDim S1x1x1x1x1 ![4] bcast_S1_S1x1x1x1x1_4 (constantI S1 32 1535#32))))

/-- Whether the wrapped index lies in [0, 1535]: the mask folded by "and" over its trailing unit axis. -/
def inRange (ix : IVec S32x256x56x56 32) : IVec S32x256x56x56 1 :=
  Host.reduce IntOp.andi (rangeMask ix) (constantI S_ 1 1#1) reducesTo_S32x256x56x56x1_S32x256x56x56_d4 h_S_

/-- The table lookup: the table at the wrapped index where that is in range, the fill value elsewhere. -/
def take (tbl : FVec F S1536 .f32) (ix : IVec S32x256x56x56 32) : FVec F S32x256x56x56 .f32 :=
  select (inRange ix) (Host.gather gather_S1536_S32x256x56x56x1_S32x256x56x56_n_0_n_n_0_4_1 tbl (wrapped5 ix))
    (broadcastInDim S32x256x56x56 ![] bcast_S_S32x256x56x56 (constant S_ .f32 0x7FC00000#32))

/-- The reference's result: left point of the bin + distance into the bin · the bin's rise. -/
def out (x : FVec F S32x256x56x56 .f32) (pts : FVec F S256x7 .f32) : FVec F S32x256x56x56 .f32 :=
  addf (take (leftTbl pts) (idx x)) (mulf (dists x) (take (diffTbl pts) (idx x)))

/-! ## The run -/

/-- @main's operations in order, the three calls written out at their sites over the calls' own buffers. -/
abbrev ops : List (HloOp τ sig (Elt F)) :=
  [ nullary main_cst (constant S_ .f32 0x402CCCCD#32),
    unary main_cst main_v0 (broadcastInDim S32x256x56x56 ![] bcast_S_S32x256x56x56 : (⟨S_, .f32⟩ : BufTy).Contents (Elt F) → (⟨S32x256x56x56, .f32⟩ : BufTy).Contents (Elt F)),
    binary main_arg0 main_v0 main_v1 (addf : (⟨S32x256x56x56, .f32⟩ : BufTy).Contents (Elt F) → (⟨S32x256x56x56, .f32⟩ : BufTy).Contents (Elt F) → (⟨S32x256x56x56, .f32⟩ : BufTy).Contents (Elt F)),
    nullary main_cst_0 (constant S_ .f32 0x3F666666#32),
    unary main_cst_0 main_v2 (broadcastInDim S32x256x56x56 ![] bcast_S_S32x256x56x56 : (⟨S_, .f32⟩ : BufTy).Contents (Elt F) → (⟨S32x256x56x56, .f32⟩ : BufTy).Contents (Elt F)),
    binary main_v1 main_v2 main_v3 (Host.divf : (⟨S32x256x56x56, .f32⟩ : BufTy).Contents (Elt F) → (⟨S32x256x56x56, .f32⟩ : BufTy).Contents (Elt F) → (⟨S32x256x56x56, .f32⟩ : BufTy).Contents (Elt F)),
    nullary main_cst_1 (constant S_ .f32 0x00000000#32),
    nullary main_c (constantI S_ 32 5#32),
    TRef.unary (.of main_cst_1) main_call0.v0 id,
    TRef.unary main_call0.v0 main_call0.v1 (broadcastInDim S32x256x56x56 ![] bcast_S_S32x256x56x56),
    TRef.binary main_call0.v1 (.of main_v3) main_call0.v2 maximumf,
    TRef.unary (.of main_c) main_call0.v3 (sitofp .f32),
    TRef.unary main_call0.v3 main_call0.v4 (broadcastInDim S32x256x56x56 ![] bcast_S_S32x256x56x56),
    TRef.binary main_call0.v4 main_call0.v2 main_call0.v5 minimumf,
    unary main_v4 main_v5 (fptosi 32 : (⟨S32x256x56x56, .f32⟩ : BufTy).Contents (Elt F) → (⟨S32x256x56x56, .i32⟩ : BufTy).Contents (Elt F)),
    unary main_v5 main_v6 (sitofp .f32 : (⟨S32x256x56x56, .i32⟩ : BufTy).Contents (Elt F) → (⟨S32x256x56x56, .f32⟩ : BufTy).Contents (Elt F)),
    binary main_v3 main_v6 main_v7 (subf : (⟨S32x256x56x56, .f32⟩ : BufTy).Contents (Elt F) → (⟨S32x256x56x56, .f32⟩ : BufTy).Contents (Elt F) → (⟨S32x256x56x56, .f32⟩ : BufTy).Contents (Elt F)),
    nullary main_v8 (iotaInDim S256 32 0),
    nullary main_c_2 (constantI S_ 32 6#32),
    unary main_c_2 main_v9 (broadcastInDim S256 ![] bcast_S_S256 : (⟨S_, .i32⟩ : BufTy).Contents (Elt F) → (⟨S256, .i32⟩ : BufTy).Contents (Elt F)),
    binary main_v8 main_v9 main_v10 (muli : (⟨S256, .i32⟩ : BufTy).Contents (Elt F) → (⟨S256, .i32⟩ : BufTy).Contents (Elt F) → (⟨S256, .i32⟩ : BufTy).Contents (Elt F)),
    reshape main_v10 main_v11 rfl shapeCasts_S256_S1x256x1x1,
    unary main_v11 main_v12 (broadcastInDim S32x256x56x56 ![0, 1, 2, 3] bcast_S1x256x1x1_S32x256x56x56_0_1_2_3 : (⟨S1x256x1x1, .i32⟩ : BufTy).Contents (Elt F) → (⟨S32x256x56x56, .i32⟩ : BufTy).Contents (Elt F)),
    binary main_v5 main_v12 main_v13 (addi : (⟨S32x256x56x56, .i32⟩ : BufTy).Contents (Elt F) → (⟨S32x256x56x56, .i32⟩ : BufTy).Contents (Elt F) → (⟨S32x256x56x56, .i32⟩ : BufTy).Contents (Elt F)),
    unary main_arg1 main_v14 ((extractStridedSlice S256x6 ![0, 0] · slices_S256x7_S256x6_0_0) : (⟨S256x7, .f32⟩ : BufTy).Contents (Elt F) → (⟨S256x6, .f32⟩ : BufTy).Contents (Elt F)),
    reshape main_v14 main_v15 rfl shapeCasts_S256x6_S1536,
    unary main_arg1 main_v16 ((extractStridedSlice S256x6 ![0, 1] · slices_S256x7_S256x6_0_1) : (⟨S256x7, .f32⟩ : BufTy).Contents (Elt F) → (⟨S256x6, .f32⟩ : BufTy).Contents (Elt F)),
    unary main_arg1 main_v17 ((extractStridedSlice S256x6 ![0, 0] · slices_S256x7_S256x6_0_0) : (⟨S256x7, .f32⟩ : BufTy).Contents (Elt F) → (⟨S256x6, .f32⟩ : BufTy).Contents (Elt F)),
    binary main_v16 main_v17 main_v18 (subf : (⟨S256x6, .f32⟩ : BufTy).Contents (Elt F) → (⟨S256x6, .f32⟩ : BufTy).Contents (Elt F) → (⟨S256x6, .f32⟩ : BufTy).Contents (Elt F)),
    reshape main_v18 main_v19 rfl shapeCasts_S256x6_S1536,
    TRef.nullary main_call1.c (constantI S_ 32 0#32),
    TRef.unary main_call1.c main_call1.v0 (broadcastInDim S32x256x56x56 ![] bcast_S_S32x256x56x56),
    TRef.binary (.of main_v13) main_call1.v0 main_call1.v1 (cmpi .slt),
    TRef.nullary main_call1.c_0 (constantI S_ 32 1536#32),
    TRef.unary main_call1.c_0 main_call1.v2 (broadcastInDim S32x256x56x56 ![] bcast_S_S32x256x56x56),
    TRef.binary (.of main_v13) main_call1.v2 main_call1.v3 addi,
    TRef.ternary main_call1.v1 main_call1.v3 (.of main_v13) main_call1.call0.v0 select,
    TRef.unary main_call1.call0.v0 main_call1.v5 (broadcastInDim S32x256x56x56x1 ![0, 1, 2, 3] bcast_S32x256x56x56_S32x256x56x56x1_0_1_2_3),
    TRef.nullary main_call1.c_1 (constantI S1 32 1535#32),
    TRef.nullary main_call1.c_2 (constantI S_ 32 0#32),
    TRef.unary main_call1.c_2 main_call1.v6 (broadcastInDim S32x256x56x56x1 ![] bcast_S_S32x256x56x56x1),
    TRef.binary main_call1.v5 main_call1.v6 main_call1.v7 (cmpi .sge),
    TRef.unary main_call1.c_1 main_call1.v8 (broadcastInDim S1x1x1x1x1 ![4] bcast_S1_S1x1x1x1x1_4),
    TRef.unary main_call1.v8 main_call1.v9 (broadcastInDim S32x256x56x56x1 ![0, 1, 2, 3, 4] bcast_S1x1x1x1x1_S32x256x56x56x1_0_1_2_3_4),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x256x56x56x1_S32x256x56x56_d4 h_S_),
    TRef.binary (.of main_v15) main_call1.v5 main_call1.v13 (fun x i => Host.gather gather_S1536_S32x256x56x56x1_S32x256x56x56_n_0_n_n_0_4_1 x i),
    TRef.nullary main_call1.cst (constant S_ .f32 0x7FC00000#32),
    TRef.unary main_call1.cst main_call1.v14 (broadcastInDim S32x256x56x56 ![] bcast_S_S32x256x56x56),
    TRef.ternary main_call1.v12 main_call1.v13 main_call1.v14 main_call1.v15 select,
    TRef.nullary main_call2.c (constantI S_ 32 0#32),
    TRef.unary main_call2.c main_call2.v0 (broadcastInDim S32x256x56x56 ![] bcast_S_S32x256x56x56),
    TRef.binary (.of main_v13) main_call2.v0 main_call2.v1 (cmpi .slt),
    TRef.nullary main_call2.c_0 (constantI S_ 32 1536#32),
    TRef.unary main_call2.c_0 main_call2.v2 (broadcastInDim S32x256x56x56 ![] bcast_S_S32x256x56x56),
    TRef.binary (.of main_v13) main_call2.v2 main_call2.v3 addi,
    TRef.ternary main_call2.v1 main_call2.v3 (.of main_v13) main_call2.call0.v0 select,
    TRef.unary main_call2.call0.v0 main_call2.v5 (broadcastInDim S32x256x56x56x1 ![0, 1, 2, 3] bcast_S32x256x56x56_S32x256x56x56x1_0_1_2_3),
    TRef.nullary main_call2.c_1 (constantI S1 32 1535#32),
    TRef.nullary main_call2.c_2 (constantI S_ 32 0#32),
    TRef.unary main_call2.c_2 main_call2.v6 (broadcastInDim S32x256x56x56x1 ![] bcast_S_S32x256x56x56x1),
    TRef.binary main_call2.v5 main_call2.v6 main_call2.v7 (cmpi .sge),
    TRef.unary main_call2.c_1 main_call2.v8 (broadcastInDim S1x1x1x1x1 ![4] bcast_S1_S1x1x1x1x1_4),
    TRef.unary main_call2.v8 main_call2.v9 (broadcastInDim S32x256x56x56x1 ![0, 1, 2, 3, 4] bcast_S1x1x1x1x1_S32x256x56x56x1_0_1_2_3_4),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32x256x56x56x1_S32x256x56x56_d4 h_S_),
    TRef.binary (.of main_v19) main_call2.v5 main_call2.v13 (fun x i => Host.gather gather_S1536_S32x256x56x56x1_S32x256x56x56_n_0_n_n_0_4_1 x i),
    TRef.nullary main_call2.cst (constant S_ .f32 0x7FC00000#32),
    TRef.unary main_call2.cst main_call2.v14 (broadcastInDim S32x256x56x56 ![] bcast_S_S32x256x56x56),
    TRef.ternary main_call2.v12 main_call2.v13 main_call2.v14 main_call2.v15 select,
    binary main_v7 main_v21 main_v22 (mulf : (⟨S32x256x56x56, .f32⟩ : BufTy).Contents (Elt F) → (⟨S32x256x56x56, .f32⟩ : BufTy).Contents (Elt F) → (⟨S32x256x56x56, .f32⟩ : BufTy).Contents (Elt F)),
    binary main_v20 main_v22 main_v23 (addf : (⟨S32x256x56x56, .f32⟩ : BufTy).Contents (Elt F) → (⟨S32x256x56x56, .f32⟩ : BufTy).Contents (Elt F) → (⟨S32x256x56x56, .f32⟩ : BufTy).Contents (Elt F)) ]

set_option maxRecDepth 8192 in
/-- @main is that straight line: the outlined functions' bodies put at their calls, and sequencing reassociated. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., reshape_bufs_sub .., unary_bufs_sub .., binary_bufs_sub .., unary_bufs_sub .., reshape_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., binary_bufs_sub .., binary_bufs_sub ..⟩

/-- Every buffer after the run is the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The run, stretch by stretch

The straight line is cut into six stretches: everything up to the two flattened tables and the table index; the first lookup up
to its three parts (range mask, gather, fill value); the select that joins them; the same two for the second lookup; the final
product and sum. Each stretch is read over an arbitrary valuation of the buffers before it, so that each equation is small. -/

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

abbrev preOps : List (HloOp τ sig (Elt F)) :=
  [ nullary main_cst (constant S_ .f32 0x402CCCCD#32),
    unary main_cst main_v0 (broadcastInDim S32x256x56x56 ![] bcast_S_S32x256x56x56 : (⟨S_, .f32⟩ : BufTy).Contents (Elt F) → (⟨S32x256x56x56, .f32⟩ : BufTy).Contents (Elt F)),
    binary main_arg0 main_v0 main_v1 (addf : (⟨S32x256x56x56, .f32⟩ : BufTy).Contents (Elt F) → (⟨S32x256x56x56, .f32⟩ : BufTy).Contents (Elt F) → (⟨S32x256x56x56, .f32⟩ : BufTy).Contents (Elt F)),
    nullary main_cst_0 (constant S_ .f32 0x3F666666#32),
    unary main_cst_0 main_v2 (broadcastInDim S32x256x56x56 ![] bcast_S_S32x256x56x56 : (⟨S_, .f32⟩ : BufTy).Contents (Elt F) → (⟨S32x256x56x56, .f32⟩ : BufTy).Contents (Elt F)),
    binary main_v1 main_v2 main_v3 (Host.divf : (⟨S32x256x56x56, .f32⟩ : BufTy).Contents (Elt F) → (⟨S32x256x56x56, .f32⟩ : BufTy).Contents (Elt F) → (⟨S32x256x56x56, .f32⟩ : BufTy).Contents (Elt F)),
    nullary main_cst_1 (constant S_ .f32 0x00000000#32),
    nullary main_c (constantI S_ 32 5#32),
    TRef.unary (.of main_cst_1) main_call0.v0 id,
    TRef.unary main_call0.v0 main_call0.v1 (broadcastInDim S32x256x56x56 ![] bcast_S_S32x256x56x56),
    TRef.binary main_call0.v1 (.of main_v3) main_call0.v2 maximumf,
    TRef.unary (.of main_c) main_call0.v3 (sitofp .f32),
    TRef.unary main_call0.v3 main_call0.v4 (broadcastInDim S32x256x56x56 ![] bcast_S_S32x256x56x56),
    TRef.binary main_call0.v4 main_call0.v2 main_call0.v5 minimumf,
    unary main_v4 main_v5 (fptosi 32 : (⟨S32x256x56x56, .f32⟩ : BufTy).Contents (Elt F) → (⟨S32x256x56x56, .i32⟩ : BufTy).Contents (Elt F)),
    unary main_v5 main_v6 (sitofp .f32 : (⟨S32x256x56x56, .i32⟩ : BufTy).Contents (Elt F) → (⟨S32x256x56x56, .f32⟩ : BufTy).Contents (Elt F)),
    binary main_v3 main_v6 main_v7 (subf : (⟨S32x256x56x56, .f32⟩ : BufTy).Contents (Elt F) → (⟨S32x256x56x56, .f32⟩ : BufTy).Contents (Elt F) → (⟨S32x256x56x56, .f32⟩ : BufTy).Contents (Elt F)),
    nullary main_v8 (iotaInDim S256 32 0),
    nullary main_c_2 (constantI S_ 32 6#32),
    unary main_c_2 main_v9 (broadcastInDim S256 ![] bcast_S_S256 : (⟨S_, .i32⟩ : BufTy).Contents (Elt F) → (⟨S256, .i32⟩ : BufTy).Contents (Elt F)),
    binary main_v8 main_v9 main_v10 (muli : (⟨S256, .i32⟩ : BufTy).Contents (Elt F) → (⟨S256, .i32⟩ : BufTy).Contents (Elt F) → (⟨S256, .i32⟩ : BufTy).Contents (Elt F)),
    reshape main_v10 main_v11 rfl shapeCasts_S256_S1x256x1x1,
    unary main_v11 main_v12 (broadcastInDim S32x256x56x56 ![0, 1, 2, 3] bcast_S1x256x1x1_S32x256x56x56_0_1_2_3 : (⟨S1x256x1x1, .i32⟩ : BufTy).Contents (Elt F) → (⟨S32x256x56x56, .i32⟩ : BufTy).Contents (Elt F)),
    binary main_v5 main_v12 main_v13 (addi : (⟨S32x256x56x56, .i32⟩ : BufTy).Contents (Elt F) → (⟨S32x256x56x56, .i32⟩ : BufTy).Contents (Elt F) → (⟨S32x256x56x56, .i32⟩ : BufTy).Contents (Elt F)),
    unary main_arg1 main_v14 ((extractStridedSlice S256x6 ![0, 0] · slices_S256x7_S256x6_0_0) : (⟨S256x7, .f32⟩ : BufTy).Contents (Elt F) → (⟨S256x6, .f32⟩ : BufTy).Contents (Elt F)),
    reshape main_v14 main_v15 rfl shapeCasts_S256x6_S1536,
    unary main_arg1 main_v16 ((extractStridedSlice S256x6 ![0, 1] · slices_S256x7_S256x6_0_1) : (⟨S256x7, .f32⟩ : BufTy).Contents (Elt F) → (⟨S256x6, .f32⟩ : BufTy).Contents (Elt F)),
    unary main_arg1 main_v17 ((extractStridedSlice S256x6 ![0, 0] · slices_S256x7_S256x6_0_0) : (⟨S256x7, .f32⟩ : BufTy).Contents (Elt F) → (⟨S256x6, .f32⟩ : BufTy).Contents (Elt F)),
    binary main_v16 main_v17 main_v18 (subf : (⟨S256x6, .f32⟩ : BufTy).Contents (Elt F) → (⟨S256x6, .f32⟩ : BufTy).Contents (Elt F) → (⟨S256x6, .f32⟩ : BufTy).Contents (Elt F)),
    reshape main_v18 main_v19 rfl shapeCasts_S256x6_S1536 ]

abbrev lookA1 : List (HloOp τ sig (Elt F)) :=
  [ TRef.nullary main_call1.c (constantI S_ 32 0#32),
    TRef.unary main_call1.c main_call1.v0 (broadcastInDim S32x256x56x56 ![] bcast_S_S32x256x56x56),
    TRef.binary (.of main_v13) main_call1.v0 main_call1.v1 (cmpi .slt),
    TRef.nullary main_call1.c_0 (constantI S_ 32 1536#32),
    TRef.unary main_call1.c_0 main_call1.v2 (broadcastInDim S32x256x56x56 ![] bcast_S_S32x256x56x56),
    TRef.binary (.of main_v13) main_call1.v2 main_call1.v3 addi,
    TRef.ternary main_call1.v1 main_call1.v3 (.of main_v13) main_call1.call0.v0 select,
    TRef.unary main_call1.call0.v0 main_call1.v5 (broadcastInDim S32x256x56x56x1 ![0, 1, 2, 3] bcast_S32x256x56x56_S32x256x56x56x1_0_1_2_3),
    TRef.nullary main_call1.c_1 (constantI S1 32 1535#32),
    TRef.nullary main_call1.c_2 (constantI S_ 32 0#32),
    TRef.unary main_call1.c_2 main_call1.v6 (broadcastInDim S32x256x56x56x1 ![] bcast_S_S32x256x56x56x1),
    TRef.binary main_call1.v5 main_call1.v6 main_call1.v7 (cmpi .sge),
    TRef.unary main_call1.c_1 main_call1.v8 (broadcastInDim S1x1x1x1x1 ![4] bcast_S1_S1x1x1x1x1_4),
    TRef.unary main_call1.v8 main_call1.v9 (broadcastInDim S32x256x56x56x1 ![0, 1, 2, 3, 4] bcast_S1x1x1x1x1_S32x256x56x56x1_0_1_2_3_4),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S32x256x56x56x1_S32x256x56x56_d4 h_S_),
    TRef.binary (.of main_v15) main_call1.v5 main_call1.v13 (fun x i => Host.gather gather_S1536_S32x256x56x56x1_S32x256x56x56_n_0_n_n_0_4_1 x i),
    TRef.nullary main_call1.cst (constant S_ .f32 0x7FC00000#32),
    TRef.unary main_call1.cst main_call1.v14 (broadcastInDim S32x256x56x56 ![] bcast_S_S32x256x56x56) ]

abbrev sel1 : List (HloOp τ sig (Elt F)) :=
  [ TRef.ternary main_call1.v12 main_call1.v13 main_call1.v14 main_call1.v15 select ]

abbrev lookA2 : List (HloOp τ sig (Elt F)) :=
  [ TRef.nullary main_call2.c (constantI S_ 32 0#32),
    TRef.unary main_call2.c main_call2.v0 (broadcastInDim S32x256x56x56 ![] bcast_S_S32x256x56x56),
    TRef.binary (.of main_v13) main_call2.v0 main_call2.v1 (cmpi .slt),
    TRef.nullary main_call2.c_0 (constantI S_ 32 1536#32),
    TRef.unary main_call2.c_0 main_call2.v2 (broadcastInDim S32x256x56x56 ![] bcast_S_S32x256x56x56),
    TRef.binary (.of main_v13) main_call2.v2 main_call2.v3 addi,
    TRef.ternary main_call2.v1 main_call2.v3 (.of main_v13) main_call2.call0.v0 select,
    TRef.unary main_call2.call0.v0 main_call2.v5 (broadcastInDim S32x256x56x56x1 ![0, 1, 2, 3] bcast_S32x256x56x56_S32x256x56x56x1_0_1_2_3),
    TRef.nullary main_call2.c_1 (constantI S1 32 1535#32),
    TRef.nullary main_call2.c_2 (constantI S_ 32 0#32),
    TRef.unary main_call2.c_2 main_call2.v6 (broadcastInDim S32x256x56x56x1 ![] bcast_S_S32x256x56x56x1),
    TRef.binary main_call2.v5 main_call2.v6 main_call2.v7 (cmpi .sge),
    TRef.unary main_call2.c_1 main_call2.v8 (broadcastInDim S1x1x1x1x1 ![4] bcast_S1_S1x1x1x1x1_4),
    TRef.unary main_call2.v8 main_call2.v9 (broadcastInDim S32x256x56x56x1 ![0, 1, 2, 3, 4] bcast_S1x1x1x1x1_S32x256x56x56x1_0_1_2_3_4),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S32x256x56x56x1_S32x256x56x56_d4 h_S_),
    TRef.binary (.of main_v19) main_call2.v5 main_call2.v13 (fun x i => Host.gather gather_S1536_S32x256x56x56x1_S32x256x56x56_n_0_n_n_0_4_1 x i),
    TRef.nullary main_call2.cst (constant S_ .f32 0x7FC00000#32),
    TRef.unary main_call2.cst main_call2.v14 (broadcastInDim S32x256x56x56 ![] bcast_S_S32x256x56x56) ]

abbrev sel2 : List (HloOp τ sig (Elt F)) :=
  [ TRef.ternary main_call2.v12 main_call2.v13 main_call2.v14 main_call2.v15 select ]

abbrev postOps : List (HloOp τ sig (Elt F)) :=
  [ binary main_v7 main_v21 main_v22 (mulf : (⟨S32x256x56x56, .f32⟩ : BufTy).Contents (Elt F) → (⟨S32x256x56x56, .f32⟩ : BufTy).Contents (Elt F) → (⟨S32x256x56x56, .f32⟩ : BufTy).Contents (Elt F)),
    binary main_v20 main_v22 main_v23 (addf : (⟨S32x256x56x56, .f32⟩ : BufTy).Contents (Elt F) → (⟨S32x256x56x56, .f32⟩ : BufTy).Contents (Elt F) → (⟨S32x256x56x56, .f32⟩ : BufTy).Contents (Elt F)) ]

/-- @main's operations are the six stretches in order. -/
theorem ops_split : (ops : List (HloOp τ sig (Elt F))) = preOps ++ (lookA1 ++ (sel1 ++ (lookA2 ++ (sel2 ++ postOps)))) := rfl

attribute [local irreducible] Host.reduce Host.gather in
set_option maxRecDepth 16384 in
set_option maxHeartbeats 400000 in
theorem pre_v13 (W : Valuation τ sig (Elt F)) :
    after preOps W (main_v13 : DevRef τ sig) = idx (W (main_arg0 : DevRef τ sig)) := by
  after_results_simp
  unfold idx offs regions clipped xn
  rfl

attribute [local irreducible] Host.reduce Host.gather in
set_option maxRecDepth 16384 in
set_option maxHeartbeats 400000 in
theorem pre_v7 (W : Valuation τ sig (Elt F)) :
    after preOps W (main_v7 : DevRef τ sig) = dists (W (main_arg0 : DevRef τ sig)) := by
  after_results_simp
  unfold dists regions clipped xn
  rfl

attribute [local irreducible] Host.reduce Host.gather in
set_option maxRecDepth 16384 in
set_option maxHeartbeats 400000 in
theorem pre_v15 (W : Valuation τ sig (Elt F)) :
    after preOps W (main_v15 : DevRef τ sig) = leftTbl (W (main_arg1 : DevRef τ sig)) := by
  after_results_simp
  unfold leftTbl
  rfl

attribute [local irreducible] Host.reduce Host.gather in
set_option maxRecDepth 16384 in
set_option maxHeartbeats 400000 in
theorem pre_v19 (W : Valuation τ sig (Elt F)) :
    after preOps W (main_v19 : DevRef τ sig) = diffTbl (W (main_arg1 : DevRef τ sig)) := by
  after_results_simp
  unfold diffTbl
  rfl

attribute [local irreducible] Host.reduce Host.gather in
set_option maxRecDepth 16384 in
set_option maxHeartbeats 400000 in
theorem look1_mask (W : Valuation τ sig (Elt F)) :
    after lookA1 W (main_call1_v12 : DevRef τ sig) = inRange (W (main_v13 : DevRef τ sig)) := by
  after_results_simp
  unfold inRange rangeMask wrapped5 wrapped
  rfl

attribute [local irreducible] Host.reduce Host.gather in
set_option maxRecDepth 16384 in
set_option maxHeartbeats 400000 in
theorem look1_gather (W : Valuation τ sig (Elt F)) :
    after lookA1 W (main_call1_v13 : DevRef τ sig) = Host.gather gather_S1536_S32x256x56x56x1_S32x256x56x56_n_0_n_n_0_4_1 (W (main_v15 : DevRef τ sig)) (wrapped5 (W (main_v13 : DevRef τ sig))) := by
  after_results_simp
  unfold wrapped5 wrapped
  rfl

attribute [local irreducible] Host.reduce Host.gather in
set_option maxRecDepth 16384 in
set_option maxHeartbeats 400000 in
theorem look1_fill (W : Valuation τ sig (Elt F)) :
    after lookA1 W (main_call1_v14 : DevRef τ sig) = broadcastInDim S32x256x56x56 ![] bcast_S_S32x256x56x56 (constant S_ .f32 0x7FC00000#32) := by
  after_results_simp
  rfl

attribute [local irreducible] Host.reduce Host.gather in
set_option maxRecDepth 16384 in
set_option maxHeartbeats 400000 in
theorem look2_mask (W : Valuation τ sig (Elt F)) :
    after lookA2 W (main_call2_v12 : DevRef τ sig) = inRange (W (main_v13 : DevRef τ sig)) := by
  after_results_simp
  unfold inRange rangeMask wrapped5 wrapped
  rfl

attribute [local irreducible] Host.reduce Host.gather in
set_option maxRecDepth 16384 in
set_option maxHeartbeats 400000 in
theorem look2_gather (W : Valuation τ sig (Elt F)) :
    after lookA2 W (main_call2_v13 : DevRef τ sig) = Host.gather gather_S1536_S32x256x56x56x1_S32x256x56x56_n_0_n_n_0_4_1 (W (main_v19 : DevRef τ sig)) (wrapped5 (W (main_v13 : DevRef τ sig))) := by
  after_results_simp
  unfold wrapped5 wrapped
  rfl

attribute [local irreducible] Host.reduce Host.gather in
set_option maxRecDepth 16384 in
set_option maxHeartbeats 400000 in
theorem look2_fill (W : Valuation τ sig (Elt F)) :
    after lookA2 W (main_call2_v14 : DevRef τ sig) = broadcastInDim S32x256x56x56 ![] bcast_S_S32x256x56x56 (constant S_ .f32 0x7FC00000#32) := by
  after_results_simp
  rfl

attribute [local irreducible] Host.reduce Host.gather in
set_option maxRecDepth 16384 in
set_option maxHeartbeats 400000 in
theorem sel1_v20 (W : Valuation τ sig (Elt F)) :
    after sel1 W (main_v20 : DevRef τ sig) = select (W (main_call1_v12 : DevRef τ sig)) (W (main_call1_v13 : DevRef τ sig)) (W (main_call1_v14 : DevRef τ sig)) := by
  after_results_simp
  rfl

attribute [local irreducible] Host.reduce Host.gather in
set_option maxRecDepth 16384 in
set_option maxHeartbeats 400000 in
theorem sel2_v21 (W : Valuation τ sig (Elt F)) :
    after sel2 W (main_v21 : DevRef τ sig) = select (W (main_call2_v12 : DevRef τ sig)) (W (main_call2_v13 : DevRef τ sig)) (W (main_call2_v14 : DevRef τ sig)) := by
  after_results_simp
  rfl

attribute [local irreducible] Host.reduce Host.gather in
set_option maxRecDepth 16384 in
set_option maxHeartbeats 400000 in
theorem post_v23 (W : Valuation τ sig (Elt F)) :
    after postOps W (main_v23 : DevRef τ sig) = addf (W (main_v20 : DevRef τ sig)) (mulf (W (main_v7 : DevRef τ sig)) (W (main_v21 : DevRef τ sig))) := by
  after_results_simp

theorem lookA1_keeps_main_v7 (W : Valuation τ sig (Elt F)) : after lookA1 W (main_v7 : DevRef τ sig) = W (main_v7 : DevRef τ sig) := by
  after_results_simp

theorem sel1_keeps_main_v7 (W : Valuation τ sig (Elt F)) : after sel1 W (main_v7 : DevRef τ sig) = W (main_v7 : DevRef τ sig) := by
  after_results_simp

theorem lookA1_keeps_main_v13 (W : Valuation τ sig (Elt F)) : after lookA1 W (main_v13 : DevRef τ sig) = W (main_v13 : DevRef τ sig) := by
  after_results_simp

theorem sel1_keeps_main_v13 (W : Valuation τ sig (Elt F)) : after sel1 W (main_v13 : DevRef τ sig) = W (main_v13 : DevRef τ sig) := by
  after_results_simp

theorem lookA1_keeps_main_v19 (W : Valuation τ sig (Elt F)) : after lookA1 W (main_v19 : DevRef τ sig) = W (main_v19 : DevRef τ sig) := by
  after_results_simp

theorem sel1_keeps_main_v19 (W : Valuation τ sig (Elt F)) : after sel1 W (main_v19 : DevRef τ sig) = W (main_v19 : DevRef τ sig) := by
  after_results_simp

theorem lookA2_keeps_main_v7 (W : Valuation τ sig (Elt F)) : after lookA2 W (main_v7 : DevRef τ sig) = W (main_v7 : DevRef τ sig) := by
  after_results_simp

theorem sel2_keeps_main_v7 (W : Valuation τ sig (Elt F)) : after sel2 W (main_v7 : DevRef τ sig) = W (main_v7 : DevRef τ sig) := by
  after_results_simp

theorem lookA2_keeps_main_v20 (W : Valuation τ sig (Elt F)) : after lookA2 W (main_v20 : DevRef τ sig) = W (main_v20 : DevRef τ sig) := by
  after_results_simp

theorem sel2_keeps_main_v20 (W : Valuation τ sig (Elt F)) : after sel2 W (main_v20 : DevRef τ sig) = W (main_v20 : DevRef τ sig) := by
  after_results_simp

/-- The fold at the result buffer is the staged term of the two argument arrays: the stretches composed. -/
theorem out_eq (V : Valuation τ sig (Elt F)) :
    after ops V (main_v23 : DevRef τ sig) = out (V (main_arg0 : DevRef τ sig)) (V (main_arg1 : DevRef τ sig)) := by
  rw [ops_split, after_append, after_append, after_append, after_append, after_append, post_v23,
    sel2_v21, sel2_keeps_main_v20, sel2_keeps_main_v7, look2_mask, look2_gather, look2_fill, lookA2_keeps_main_v20, lookA2_keeps_main_v7,
    sel1_v20, sel1_keeps_main_v7, sel1_keeps_main_v13, sel1_keeps_main_v19,
    look1_mask, look1_gather, look1_fill, lookA1_keeps_main_v7, lookA1_keeps_main_v13, lookA1_keeps_main_v19,
    pre_v13, pre_v7, pre_v15, pre_v19]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- Every weakly fair execution of the reference terminates with its result at the staged term of the argument arrays as
    launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v23).trans (out_eq _), (h c main_arg0).trans (arg0_eq _), (h c main_arg1).trans (arg1_eq _)⟩)
    (run_fold m ρ)

end Cert.Pwlu.Ref

end
-- ==== Proof.HingeLaw.lean ====
import Idealize.ShloMosaic.PureOps.Ideal
import Idealize.ShloMosaic.PureOps.Ideal.Laws
noncomputable section
namespace Cert.Pwlu
open Idealize.ShloMosaic

/-- the float words both programs print: 0, 1, 2, 3, 4, 5, the bound 2.7f and the bin length 0.9f -/
abbrev w0 : EReal := Ideal.ofBits .f32 0x00000000#32
abbrev w1 : EReal := Ideal.ofBits .f32 0x3F800000#32
abbrev w2 : EReal := Ideal.ofBits .f32 0x40000000#32
abbrev w3 : EReal := Ideal.ofBits .f32 0x40400000#32
abbrev w4 : EReal := Ideal.ofBits .f32 0x40800000#32
abbrev w5 : EReal := Ideal.ofBits .f32 0x40A00000#32
abbrev wB : EReal := Ideal.ofBits .f32 0x402CCCCD#32
abbrev wL : EReal := Ideal.ofBits .f32 0x3F666666#32

/-- the normalized coordinate (x + bound) / bin length -/
def xnorm (x : EReal) : EReal := Ideal.div (x + wB) wL

/-- the kernel's sum of clipped ramps, operation for operation -/
def hinge (t p0 d0 d1 d2 d3 d4 d5 : EReal) : EReal :=
  (((((p0 + d0 * min t w1) + d1 * min w1 (max w0 (t - w1))) + d2 * min w1 (max w0 (t - w2)))
    + d3 * min w1 (max w0 (t - w3))) + d4 * min w1 (max w0 (t - w4))) + d5 * max (t - w5) w0

/-- the reference's bin: clip to [0, 5], truncate to a 32-bit integer -/
def bin (t : EReal) : BitVec 32 :=
  Ideal.fptosi 32 (min ((((5#32 : BitVec 32).toInt : ℝ)) : EReal) (max w0 t))

/-! ### The words as reals -/

theorem w0_eq : w0 = ((0 : ℝ) : EReal) := by simp [Ideal.ofBits, Ideal.ieee]
theorem w1_eq : w1 = ((1 : ℝ) : EReal) := by simp [Ideal.ofBits, Ideal.ieee, -EReal.coe_mul]; norm_num
theorem w2_eq : w2 = ((2 : ℝ) : EReal) := by simp [Ideal.ofBits, Ideal.ieee, -EReal.coe_mul]; norm_num
theorem w3_eq : w3 = ((3 : ℝ) : EReal) := by simp [Ideal.ofBits, Ideal.ieee, -EReal.coe_mul]; norm_num
theorem w4_eq : w4 = ((4 : ℝ) : EReal) := by simp [Ideal.ofBits, Ideal.ieee, -EReal.coe_mul]; norm_num
theorem w5_eq : w5 = ((5 : ℝ) : EReal) := by simp [Ideal.ofBits, Ideal.ieee, -EReal.coe_mul]; norm_num

/-- the bound is a real (its exact value, 11324621 / 2^22, never matters) -/
theorem wB_eq : ∃ b : ℝ, wB = (b : EReal) := by
  refine ⟨(11324621 / 4194304 : ℝ), ?_⟩
  simp [Ideal.ofBits, Ideal.ieee, -EReal.coe_mul]; norm_num

/-- the bin length is a positive real (its exact value, 15099494 / 2^24, never matters) -/
theorem wL_eq : ∃ l : ℝ, 0 < l ∧ wL = (l : EReal) := by
  refine ⟨(15099494 / 16777216 : ℝ), by norm_num, ?_⟩
  simp [Ideal.ofBits, Ideal.ieee, -EReal.coe_mul]; norm_num

/-- the coercion of the reals into the extended reals is monotone, so it commutes with min and max -/
theorem coe_min (a b : ℝ) : ((min a b : ℝ) : EReal) = min (a : EReal) (b : EReal) :=
  EReal.coe_strictMono.monotone.map_min
theorem coe_max (a b : ℝ) : ((max a b : ℝ) : EReal) = max (a : EReal) (b : EReal) :=
  EReal.coe_strictMono.monotone.map_max

/-! ### Clipped ramps over the reals -/

/-- the clip of u to [0, 1] is 0 below 0, 1 above 1, and u in between -/
theorem clip_zero {u : ℝ} (h : u ≤ 0) : min 1 (max 0 u) = 0 := by
  rw [max_eq_left h]; exact min_eq_right zero_le_one
theorem clip_one {u : ℝ} (h : 1 ≤ u) : min 1 (max 0 u) = 1 := by
  rw [max_eq_right (by linarith)]; exact min_eq_left h
theorem clip_mid {u : ℝ} (h0 : 0 ≤ u) (h1 : u ≤ 1) : min 1 (max 0 u) = u := by
  rw [max_eq_right h0]; exact min_eq_right h1

/-- the sum of clipped ramps over the reals, in the kernel's order of operations -/
def hingeR (t : ℝ) (p : Fin 7 → ℝ) : ℝ :=
  (((((p 0 + (p 1 - p 0) * min t 1) + (p 2 - p 1) * min 1 (max 0 (t - 1))) + (p 3 - p 2) * min 1 (max 0 (t - 2)))
    + (p 4 - p 3) * min 1 (max 0 (t - 3))) + (p 5 - p 4) * min 1 (max 0 (t - 4))) + (p 6 - p 5) * max (t - 5) 0

/-! In bin k the ramps before k are saturated at 1, ramp k is t - k, the ramps after k are 0, and the sum
telescopes to p k + (t - k) (p (k+1) - p k). Bin 0 is unclipped below and bin 5 unclipped above. -/

theorem hingeR_case0 (t : ℝ) (p : Fin 7 → ℝ) (hhi : t < 1) :
    ⌊min 5 (max 0 t)⌋ = (0 : ℤ) ∧ hingeR t p = p 0 + (t - 0) * (p 1 - p 0) := by
  refine ⟨?_, ?_⟩
  ·
    rw [Int.floor_eq_iff]
    refine ⟨?_, ?_⟩
    · have h : (0 : ℝ) ≤ min 5 (max 0 t) := le_min (by norm_num) (le_max_left 0 t)
      simpa using h
    · have h : min (5 : ℝ) (max 0 t) < 1 := min_lt_of_right_lt (max_lt (by norm_num) hhi)
      simpa using h
  · rw [hingeR, min_eq_left hhi.le,
      clip_zero (show t - 1 ≤ 0 by linarith),
      clip_zero (show t - 2 ≤ 0 by linarith),
      clip_zero (show t - 3 ≤ 0 by linarith),
      clip_zero (show t - 4 ≤ 0 by linarith),
      max_eq_right (show t - 5 ≤ 0 by linarith)]
    ring

theorem hingeR_case1 (t : ℝ) (p : Fin 7 → ℝ) (hlo : (1 : ℝ) ≤ t) (hhi : t < 2) :
    ⌊min 5 (max 0 t)⌋ = (1 : ℤ) ∧ hingeR t p = p 1 + (t - 1) * (p 2 - p 1) := by
  refine ⟨?_, ?_⟩
  ·
    rw [max_eq_right (show (0 : ℝ) ≤ t by linarith), min_eq_right (show t ≤ 5 by linarith), Int.floor_eq_iff]
    refine ⟨?_, ?_⟩
    · simpa using hlo
    · norm_num; linarith
  · rw [hingeR, min_eq_right (show (1 : ℝ) ≤ t by linarith),
      clip_mid (show (0 : ℝ) ≤ t - 1 by linarith) (show t - 1 ≤ 1 by linarith),
      clip_zero (show t - 2 ≤ 0 by linarith),
      clip_zero (show t - 3 ≤ 0 by linarith),
      clip_zero (show t - 4 ≤ 0 by linarith),
      max_eq_right (show t - 5 ≤ 0 by linarith)]
    ring

theorem hingeR_case2 (t : ℝ) (p : Fin 7 → ℝ) (hlo : (2 : ℝ) ≤ t) (hhi : t < 3) :
    ⌊min 5 (max 0 t)⌋ = (2 : ℤ) ∧ hingeR t p = p 2 + (t - 2) * (p 3 - p 2) := by
  refine ⟨?_, ?_⟩
  ·
    rw [max_eq_right (show (0 : ℝ) ≤ t by linarith), min_eq_right (show t ≤ 5 by linarith), Int.floor_eq_iff]
    refine ⟨?_, ?_⟩
    · simpa using hlo
    · norm_num; linarith
  · rw [hingeR, min_eq_right (show (1 : ℝ) ≤ t by linarith),
      clip_one (show (1 : ℝ) ≤ t - 1 by linarith),
      clip_mid (show (0 : ℝ) ≤ t - 2 by linarith) (show t - 2 ≤ 1 by linarith),
      clip_zero (show t - 3 ≤ 0 by linarith),
      clip_zero (show t - 4 ≤ 0 by linarith),
      max_eq_right (show t - 5 ≤ 0 by linarith)]
    ring

theorem hingeR_case3 (t : ℝ) (p : Fin 7 → ℝ) (hlo : (3 : ℝ) ≤ t) (hhi : t < 4) :
    ⌊min 5 (max 0 t)⌋ = (3 : ℤ) ∧ hingeR t p = p 3 + (t - 3) * (p 4 - p 3) := by
  refine ⟨?_, ?_⟩
  ·
    rw [max_eq_right (show (0 : ℝ) ≤ t by linarith), min_eq_right (show t ≤ 5 by linarith), Int.floor_eq_iff]
    refine ⟨?_, ?_⟩
    · simpa using hlo
    · norm_num; linarith
  · rw [hingeR, min_eq_right (show (1 : ℝ) ≤ t by linarith),
      clip_one (show (1 : ℝ) ≤ t - 1 by linarith),
      clip_one (show (1 : ℝ) ≤ t - 2 by linarith),
      clip_mid (show (0 : ℝ) ≤ t - 3 by linarith) (show t - 3 ≤ 1 by linarith),
      clip_zero (show t - 4 ≤ 0 by linarith),
      max_eq_right (show t - 5 ≤ 0 by linarith)]
    ring

theorem hingeR_case4 (t : ℝ) (p : Fin 7 → ℝ) (hlo : (4 : ℝ) ≤ t) (hhi : t < 5) :
    ⌊min 5 (max 0 t)⌋ = (4 : ℤ) ∧ hingeR t p = p 4 + (t - 4) * (p 5 - p 4) := by
  refine ⟨?_, ?_⟩
  ·
    rw [max_eq_right (show (0 : ℝ) ≤ t by linarith), min_eq_right (show t ≤ 5 by linarith), Int.floor_eq_iff]
    refine ⟨?_, ?_⟩
    · simpa using hlo
    · norm_num; linarith
  · rw [hingeR, min_eq_right (show (1 : ℝ) ≤ t by linarith),
      clip_one (show (1 : ℝ) ≤ t - 1 by linarith),
      clip_one (show (1 : ℝ) ≤ t - 2 by linarith),
      clip_one (show (1 : ℝ) ≤ t - 3 by linarith),
      clip_mid (show (0 : ℝ) ≤ t - 4 by linarith) (show t - 4 ≤ 1 by linarith),
      max_eq_right (show t - 5 ≤ 0 by linarith)]
    ring

theorem hingeR_case5 (t : ℝ) (p : Fin 7 → ℝ) (hlo : (5 : ℝ) ≤ t) :
    ⌊min 5 (max 0 t)⌋ = (5 : ℤ) ∧ hingeR t p = p 5 + (t - 5) * (p 6 - p 5) := by
  refine ⟨?_, ?_⟩
  ·
    rw [max_eq_right (show (0 : ℝ) ≤ t by linarith), min_eq_left (show (5 : ℝ) ≤ t by linarith), Int.floor_eq_iff]
    refine ⟨?_, ?_⟩ <;> norm_num
  · rw [hingeR, min_eq_right (show (1 : ℝ) ≤ t by linarith),
      clip_one (show (1 : ℝ) ≤ t - 1 by linarith),
      clip_one (show (1 : ℝ) ≤ t - 2 by linarith),
      clip_one (show (1 : ℝ) ≤ t - 3 by linarith),
      clip_one (show (1 : ℝ) ≤ t - 4 by linarith),
      max_eq_left (show (0 : ℝ) ≤ t - 5 by linarith)]
    ring

/-! ### The law at the extended reals -/

/-- the six bin indices as 32-bit words read back as integers -/
theorem toInt_ofNat_fin6 (k : Fin 6) : (BitVec.ofNat 32 k.val).toInt = (k.val : ℤ) := by
  revert k; decide

/-- the real law with the bin as an element of Fin 6 -/
theorem hingeR_eq (t : ℝ) (p : Fin 7 → ℝ) :
    ∃ k : Fin 6, ⌊min 5 (max 0 t)⌋ = (k.val : ℤ) ∧
      hingeR t p = p k.castSucc + (t - ((k.val : ℤ) : ℝ)) * (p k.succ - p k.castSucc) := by
  rcases lt_or_ge t 1 with h1 | h1
  · exact ⟨0, by simpa using hingeR_case0 t p h1⟩
  rcases lt_or_ge t 2 with h2 | h2
  · exact ⟨1, by simpa using hingeR_case1 t p h1 h2⟩
  rcases lt_or_ge t 3 with h3 | h3
  · exact ⟨2, by simpa using hingeR_case2 t p h2 h3⟩
  rcases lt_or_ge t 4 with h4 | h4
  · exact ⟨3, by simpa using hingeR_case3 t p h3 h4⟩
  rcases lt_or_ge t 5 with h5 | h5
  · exact ⟨4, by simpa using hingeR_case4 t p h4 h5⟩
  · exact ⟨5, by simpa using hingeR_case5 t p h5⟩

theorem hinge_eq_interp (x : ℝ) (p : Fin 7 → ℝ) :
    ∃ k : Fin 6, bin (xnorm (x : EReal)) = BitVec.ofNat 32 k.val ∧
      hinge (xnorm (x : EReal)) (p 0 : EReal) ((p 1 : EReal) - (p 0 : EReal)) ((p 2 : EReal) - (p 1 : EReal))
          ((p 3 : EReal) - (p 2 : EReal)) ((p 4 : EReal) - (p 3 : EReal)) ((p 5 : EReal) - (p 4 : EReal)) ((p 6 : EReal) - (p 5 : EReal))
        = (p k.castSucc : EReal)
          + (xnorm (x : EReal) - ((((BitVec.ofNat 32 k.val : BitVec 32).toInt : ℝ)) : EReal))
            * ((p k.succ : EReal) - (p k.castSucc : EReal)) := by
  obtain ⟨b, hb⟩ := wB_eq
  obtain ⟨l, hl, hL⟩ := wL_eq
  -- the normalized coordinate is a real t
  have ht : xnorm (x : EReal) = (((x + b) * (1 / l) : ℝ) : EReal) := by
    rw [xnorm, hb, hL, Ideal.div_coe hl.ne', ← EReal.coe_add, ← EReal.coe_mul]
  rw [ht]
  generalize (x + b) * (1 / l) = t
  obtain ⟨k, hk, hH⟩ := hingeR_eq t p
  refine ⟨k, ?_, ?_⟩
  · -- the clip of t to [0, 5] is a nonnegative real whose floor is k
    have h5 : (((5#32 : BitVec 32).toInt : ℝ)) = 5 := by
      rw [show (5#32 : BitVec 32).toInt = 5 by decide]; norm_num
    have hc : (0 : ℝ) ≤ min 5 (max 0 t) := le_min (by norm_num) (le_max_left 0 t)
    have hkk : max (-((2 ^ (32 - 1) : ℕ) : ℤ)) (min (((2 ^ (32 - 1) : ℕ) : ℤ) - 1) (k.val : ℤ)) = (k.val : ℤ) := by
      have := k.isLt
      omega
    rw [bin, h5, w0_eq, ← coe_max, ← coe_min, Ideal.fptosi, Ideal.toIntClamped_coe, if_pos hc, hk, hkk,
      BitVec.ofInt_natCast]
  · rw [toInt_ofNat_fin6, hinge, w0_eq, w1_eq, w2_eq, w3_eq, w4_eq, w5_eq]
    simp only [← EReal.coe_sub, ← coe_min, ← coe_max, ← EReal.coe_mul, ← EReal.coe_add]
    rw [EReal.coe_eq_coe_iff]
    exact hH

end Cert.Pwlu
-- ==== Proof.RefValue.lean ====
/-
  The reference's value, read at one index. At entry (b, c, h, w) of the input, with t the normalized coordinate of
  that entry, the bin is k = trunc(min(5, max(0, t))), the flattened table index is k + 6 c, which lies in [0, 1535],
  so the wrap-around leaves it alone, the range mask is true, and the two lookups read points[c, k] and
  points[c, k+1] - points[c, k].
-/
import proofs.«146327_j84756884619350_2_alg».proof.Proof.RefRun
import proofs.«146327_j84756884619350_2_alg».proof.Proof.HingeLaw
import Idealize.ShloMosaic.Lib.Pipeline.Value
import Idealize.ShloMosaic.Lib.ValueIdx
import Idealize.ShloMosaic.Lib.IdealHost

noncomputable section

namespace Cert.Pwlu.Ref

open Cert.ReferenceIdeal Cert.ReferenceIdeal.Gen Idealize.ShloMosaic Idealize.ShloMosaic.ValueIdx

/-! ## The pointwise stages -/

theorem xn_apply (x : FVec Ideal S32x256x56x56 .f32) (i : S32x256x56x56.Idx) : xn x i = xnorm (x i) := rfl

theorem regions_apply (x : FVec Ideal S32x256x56x56 .f32) (i : S32x256x56x56.Idx) : regions x i = bin (xnorm (x i)) := rfl

theorem dists_apply (x : FVec Ideal S32x256x56x56 .f32) (i : S32x256x56x56.Idx) :
    dists x i = xnorm (x i) - ((((bin (xnorm (x i))).toInt : ℝ)) : EReal) := rfl

/-! ## The channel offset -/

/-- 6 · channel at (b, c, h, w): the iota along the channel axis times six, recast and spread. -/
theorem offs_apply (b : Fin 32) (c : Fin 256) (h : Fin 56) (w : Fin 56) :
    offs (ix4 b c h w) = BitVec.ofNat 32 c.val * 6#32 := by
  unfold offs
  rw [broadcastInDim_apply _ _ _ _ (ix4 (0 : Fin 1) c (0 : Fin 1) (0 : Fin 1)) (by
    intro a
    match a with
    | ⟨0, _⟩ => rfl
    | ⟨1, _⟩ => rfl
    | ⟨2, _⟩ => rfl
    | ⟨3, _⟩ => rfl)]
  rw [shapeCast_apply _ _ _ (ix1 c) (by
    rw [Shape.rowMajor_val_one, Shape.rowMajor_val_four]
    show c.val = (((0 * 256 + c.val) * 1 + 0) * 1 + 0)
    omega)]
  rfl

theorem idx_apply (x : FVec Ideal S32x256x56x56 .f32) (b : Fin 32) (c : Fin 256) (h : Fin 56) (w : Fin 56) :
    idx x (ix4 b c h w) = bin (xnorm (x (ix4 b c h w))) + BitVec.ofNat 32 c.val * 6#32 := by
  have e : idx x (ix4 b c h w) = regions x (ix4 b c h w) + offs (ix4 b c h w) := rfl
  rw [e, offs_apply, regions_apply]

/-! ## Arithmetic of the table index -/

/-- bin + 6 · channel as one number below the table's length. -/
theorem idx_val (k : Fin 6) (c : Fin 256) :
    BitVec.ofNat 32 k.val + BitVec.ofNat 32 c.val * 6#32 = BitVec.ofNat 32 (c.val * 6 + k.val) := by
  apply BitVec.eq_of_toNat_eq
  have hk := k.isLt
  have hc := c.isLt
  simp only [BitVec.toNat_add, BitVec.toNat_mul, BitVec.toNat_ofNat]
  omega

theorem toNat_small (n : Nat) (hn : n < 1536) : (BitVec.ofNat 32 n).toNat = n := by
  rw [BitVec.toNat_ofNat]; omega

theorem toInt_small (n : Nat) (hn : n < 1536) : (BitVec.ofNat 32 n).toInt = (n : Int) := by
  rw [BitVec.toInt_eq_toNat_cond, toNat_small n hn, if_pos (by omega)]

/-- A table index is not negative, ... -/
theorem not_neg (n : Nat) (hn : n < 1536) : IntOp.cmpi .slt (BitVec.ofNat 32 n) 0#32 = 0#1 := by
  have h : (BitVec.ofNat 32 n).slt 0#32 = false := by
    rw [BitVec.slt, toInt_small n hn]; simp
  show BitVec.ofBool ((BitVec.ofNat 32 n).slt 0#32) = 0#1
  rw [h]; rfl

/-- ... and lies in [0, 1535]. -/
theorem in_range (n : Nat) (hn : n < 1536) :
    IntOp.andi (IntOp.cmpi .sge (BitVec.ofNat 32 n) 0#32) (IntOp.cmpi .sle (BitVec.ofNat 32 n) 1535#32) = 1#1 := by
  have h1 : (0#32 : BitVec 32).sle (BitVec.ofNat 32 n) = true := by
    rw [BitVec.sle, toInt_small n hn]; simp
  have h2 : (BitVec.ofNat 32 n).sle 1535#32 = true := by
    rw [BitVec.sle, toInt_small n hn]; simp; omega
  show IntOp.andi (BitVec.ofBool ((0#32 : BitVec 32).sle (BitVec.ofNat 32 n))) (BitVec.ofBool ((BitVec.ofNat 32 n).sle 1535#32)) = 1#1
  rw [h1, h2]; rfl

/-! ## The wrap, the range mask, the lookup -/

theorem wrapped_apply (ix : IVec S32x256x56x56 32) (i : S32x256x56x56.Idx) (n : Nat) (hn : n < 1536)
    (e : ix i = BitVec.ofNat 32 n) : wrapped ix i = BitVec.ofNat 32 n := by
  have e' : wrapped ix i = Scalar.select (IntOp.cmpi .slt (ix i) 0#32) (ix i + 1536#32) (ix i) := rfl
  rw [e', e, not_neg n hn, select_zero]

theorem wrapped5_apply (ix : IVec S32x256x56x56 32) (b : Fin 32) (c : Fin 256) (h : Fin 56) (w : Fin 56) (z : Fin 1) :
    wrapped5 ix (ix5 b c h w z) = wrapped ix (ix4 b c h w) := by
  unfold wrapped5
  rw [broadcastInDim_apply _ _ _ _ (ix4 b c h w) (by
    intro a
    match a with
    | ⟨0, _⟩ => rfl
    | ⟨1, _⟩ => rfl
    | ⟨2, _⟩ => rfl
    | ⟨3, _⟩ => rfl)]

/-- A left fold by "and" from true over words that are all true is true. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- Where every index is a table index, the range mask is true everywhere. -/
theorem inRange_one (ix : IVec S32x256x56x56 32) (hall : ∀ i, ∃ n, n < 1536 ∧ ix i = BitVec.ofNat 32 n)
    (j : S32x256x56x56.Idx) : inRange ix j = 1#1 := by
  have hmask : ∀ i5, rangeMask ix i5 = 1#1 := by
    intro i5
    obtain ⟨b, c, h, w, z, rfl⟩ : ∃ (b : Fin 32) (c : Fin 256) (h : Fin 56) (w : Fin 56) (z : Fin 1), i5 = ix5 b c h w z :=
      ⟨i5 0, i5 1, i5 2, i5 3, i5 4, eq_ix5 i5⟩
    obtain ⟨n, hn, e⟩ := hall (ix4 b c h w)
    have e' : rangeMask ix (ix5 b c h w z)
        = IntOp.andi (IntOp.cmpi .sge (wrapped5 ix (ix5 b c h w z)) 0#32) (IntOp.cmpi .sle (wrapped5 ix (ix5 b c h w z)) 1535#32) := rfl
    rw [e', wrapped5_apply, wrapped_apply ix _ n hn e]
    exact in_range n hn
  unfold inRange
  rw [Host.reduce_eq_foldl]
  generalize (((List.finRange S32x256x56x56x1.numel).map S32x256x56x56x1.rowMajor.symm).filter
    fun i => reducesTo_S32x256x56x56x1_S32x256x56x56_d4.drop i = j) = l
  exact foldl_andi_one (rangeMask ix) hmask l

/-- The gather at (b, c, h, w): the table at the start index there, read signed and clamped into the table. -/
theorem gather_apply {α : Type} (tbl : S1536.Idx → α) (i5 : IVec S32x256x56x56x1 32)
    (b : Fin 32) (c : Fin 256) (h : Fin 56) (w : Fin 56) :
    Host.gather gather_S1536_S32x256x56x56x1_S32x256x56x56_n_0_n_n_0_4_1 tbl i5 (ix4 b c h w)
      = tbl (ix1 ⟨min (i5 (ix5 b c h w (0 : Fin 1))).toInt.toNat 1535, by omega⟩) := by
  unfold Host.gather
  congr 1
  funext a
  obtain rfl : a = 0 := Subsingleton.elim _ _
  refine Fin.ext ?_
  show gather_S1536_S32x256x56x56x1_S32x256x56x56_n_0_n_n_0_4_1.start (ix4 b c h w) i5 0 + gather_S1536_S32x256x56x56x1_S32x256x56x56_n_0_n_n_0_4_1.batchCoord (ix4 b c h w) 0 + gather_S1536_S32x256x56x56x1_S32x256x56x56_n_0_n_n_0_4_1.offCoord (ix4 b c h w) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1536_S32x256x56x56x1_S32x256x56x56_n_0_n_n_0_4_1.startIndexMap from List.mem_singleton.mpr rfl)]
  have hsi : gather_S1536_S32x256x56x56x1_S32x256x56x56_n_0_n_n_0_4_1.siIdx (ix4 b c h w) ⟨List.idxOf (0 : Fin 1) gather_S1536_S32x256x56x56x1_S32x256x56x56_n_0_n_n_0_4_1.startIndexMap,
      List.idxOf_lt_length_iff.2 (List.mem_singleton.mpr rfl)⟩ = ix5 b c h w (0 : Fin 1) := by
    funext d; refine Fin.ext ?_
    match d with
    | ⟨0, _⟩ => rfl
    | ⟨1, _⟩ => rfl
    | ⟨2, _⟩ => rfl
    | ⟨3, _⟩ => rfl
    | ⟨4, _⟩ => rfl
  rw [hsi]
  rfl

/-- The lookup where every index is a table index: the table at that index. -/
theorem take_apply (tbl : FVec Ideal S1536 .f32) (ix : IVec S32x256x56x56 32)
    (hall : ∀ i, ∃ n, n < 1536 ∧ ix i = BitVec.ofNat 32 n)
    (b : Fin 32) (c : Fin 256) (h : Fin 56) (w : Fin 56) (n : Nat) (hn : n < 1536) (e : ix (ix4 b c h w) = BitVec.ofNat 32 n) :
    take tbl ix (ix4 b c h w) = tbl (ix1 ⟨n, hn⟩) := by
  have e' : take tbl ix (ix4 b c h w) = Scalar.select (inRange ix (ix4 b c h w))
      (Host.gather gather_S1536_S32x256x56x56x1_S32x256x56x56_n_0_n_n_0_4_1 tbl (wrapped5 ix) (ix4 b c h w)) (Ideal.ofBits .f32 0x7FC00000#32) := rfl
  rw [e', inRange_one ix hall, select_one, gather_apply]
  refine congrArg tbl (congrArg ix1 (Fin.ext ?_))
  show min (wrapped5 ix (ix5 b c h w (0 : Fin 1))).toInt.toNat 1535 = n
  rw [wrapped5_apply, wrapped_apply ix _ n hn e, toInt_small n hn]
  omega

/-! ## The two tables -/

theorem leftTbl_apply (pts : FVec Ideal S256x7 .f32) (c : Fin 256) (k : Fin 6) (hn : c.val * 6 + k.val < 1536) :
    leftTbl pts (ix1 ⟨c.val * 6 + k.val, hn⟩) = pts (ix2 c k.castSucc) := by
  unfold leftTbl
  rw [shapeCast_apply _ _ _ (ix2 c k) (by rw [Shape.rowMajor_val_two, Shape.rowMajor_val_one]; rfl)]
  rw [extractStridedSlice_apply _ _ _ _ (ix2 c k.castSucc) (by
    intro a
    match a with
    | ⟨0, _⟩ => show c.val = 0 + c.val; omega
    | ⟨1, _⟩ => show k.val = 0 + k.val; omega)]

theorem diffTbl_apply (pts : FVec Ideal S256x7 .f32) (c : Fin 256) (k : Fin 6) (hn : c.val * 6 + k.val < 1536) :
    diffTbl pts (ix1 ⟨c.val * 6 + k.val, hn⟩) = pts (ix2 c k.succ) - pts (ix2 c k.castSucc) := by
  unfold diffTbl
  rw [shapeCast_apply _ _ _ (ix2 c k) (by rw [Shape.rowMajor_val_two, Shape.rowMajor_val_one]; rfl)]
  rw [subf_apply]
  rw [extractStridedSlice_apply _ _ _ _ (ix2 c k.succ) (by
    intro a
    match a with
    | ⟨0, _⟩ => show c.val = 0 + c.val; omega
    | ⟨1, _⟩ => show k.val + 1 = 1 + k.val; omega)]
  rw [extractStridedSlice_apply _ _ _ _ (ix2 c k.castSucc) (by
    intro a
    match a with
    | ⟨0, _⟩ => show c.val = 0 + c.val; omega
    | ⟨1, _⟩ => show k.val = 0 + k.val; omega)]

end Cert.Pwlu.Ref

end
-- ==== Proof.RefPoint.lean ====
/-
  The reference's result at one index. With finite inputs the normalized coordinate t of an entry is a real, its bin k
  lies in 0..5, the flattened index k + 6 c is a table index, so the lookups read points[c, k] and the rise
  points[c, k+1] - points[c, k], and the result is points[c, k] + (t - k) (points[c, k+1] - points[c, k]): by the law
  of the clipped ramps, the sum of clipped ramps of t over the channel's points.
-/
import proofs.«146327_j84756884619350_2_alg».proof.Proof.RefValue

noncomputable section

namespace Cert.Pwlu.Ref

open Cert.ReferenceIdeal Cert.ReferenceIdeal.Gen Idealize.ShloMosaic Idealize.ShloMosaic.ValueIdx

/-- With a finite input every entry of the table-index array is a table index. -/
theorem idx_all (x : FVec Ideal S32x256x56x56 .f32) (hx : ∀ i, ∃ r : ℝ, x i = (r : EReal)) :
    ∀ i, ∃ n, n < 1536 ∧ idx x i = BitVec.ofNat 32 n := by
  intro i
  obtain ⟨b, c, h, w, rfl⟩ : ∃ (b : Fin 32) (c : Fin 256) (h : Fin 56) (w : Fin 56), i = ix4 b c h w :=
    ⟨i 0, i 1, i 2, i 3, eq_ix4 i⟩
  obtain ⟨r, hr⟩ := hx (ix4 b c h w)
  obtain ⟨k, hk, -⟩ := hinge_eq_interp r (fun _ => 0)
  have hkl := k.isLt
  have hcl := c.isLt
  refine ⟨c.val * 6 + k.val, by omega, ?_⟩
  rw [idx_apply, hr, hk, idx_val]

/-- The result at (b, c, h, w) when the entry's bin is k: the bin's left point plus the distance into the bin times the rise. -/
theorem out_interp (x : FVec Ideal S32x256x56x56 .f32) (pts : FVec Ideal S256x7 .f32)
    (hall : ∀ i, ∃ n, n < 1536 ∧ idx x i = BitVec.ofNat 32 n)
    (b : Fin 32) (c : Fin 256) (h : Fin 56) (w : Fin 56) (k : Fin 6)
    (hk : bin (xnorm (x (ix4 b c h w))) = BitVec.ofNat 32 k.val) :
    out x pts (ix4 b c h w)
      = pts (ix2 c k.castSucc)
        + (xnorm (x (ix4 b c h w)) - ((((BitVec.ofNat 32 k.val : BitVec 32).toInt : ℝ)) : EReal))
          * (pts (ix2 c k.succ) - pts (ix2 c k.castSucc)) := by
  have hkl := k.isLt
  have hcl := c.isLt
  have hn : c.val * 6 + k.val < 1536 := by omega
  have hidx : idx x (ix4 b c h w) = BitVec.ofNat 32 (c.val * 6 + k.val) := by rw [idx_apply, hk, idx_val]
  unfold out
  rw [addf_apply, mulf_apply, take_apply _ _ hall b c h w _ hn hidx, take_apply _ _ hall b c h w _ hn hidx,
    leftTbl_apply, diffTbl_apply, dists_apply, hk]

/-- With finite inputs the reference's result at (b, c, h, w) is the sum of clipped ramps of the normalized coordinate
    there over the channel's points. -/
theorem out_apply (x : FVec Ideal S32x256x56x56 .f32) (pts : FVec Ideal S256x7 .f32)
    (hx : ∀ i, ∃ r : ℝ, x i = (r : EReal)) (hp : ∀ j, ∃ r : ℝ, pts j = (r : EReal))
    (b : Fin 32) (c : Fin 256) (h : Fin 56) (w : Fin 56) :
    out x pts (ix4 b c h w)
      = hinge (xnorm (x (ix4 b c h w))) (pts (ix2 c (0 : Fin 7)))
          (pts (ix2 c (1 : Fin 7)) - pts (ix2 c (0 : Fin 7))) (pts (ix2 c (2 : Fin 7)) - pts (ix2 c (1 : Fin 7)))
          (pts (ix2 c (3 : Fin 7)) - pts (ix2 c (2 : Fin 7))) (pts (ix2 c (4 : Fin 7)) - pts (ix2 c (3 : Fin 7)))
          (pts (ix2 c (5 : Fin 7)) - pts (ix2 c (4 : Fin 7))) (pts (ix2 c (6 : Fin 7)) - pts (ix2 c (5 : Fin 7))) := by
  obtain ⟨r, hr⟩ := hx (ix4 b c h w)
  choose p hp' using fun j : Fin 7 => hp (ix2 c j)
  obtain ⟨k, hk, hH⟩ := hinge_eq_interp r p
  have hk' : bin (xnorm (x (ix4 b c h w))) = BitVec.ofNat 32 k.val := by rw [hr]; exact hk
  rw [out_interp x pts (idx_all x hx) b c h w k hk']
  simp only [hp', hr]
  exact hH.symm

end Cert.Pwlu.Ref

end
-- ==== Proof.KerValue.lean ====
/-
  The kernel's value. The body loads one [1, 256, 3136] block of the input, column 0 of the left-point table and columns
  0..5 of the rise table (both [256, 6], whole at every grid point), and stores the sum of clipped ramps of the normalized
  input, channel by channel (a channel is a row of the block). Grid point b handles batch entry b, so the blocks tile the
  [32, 256, 3136] output and the region's output array is one function of the three arrays the region stages. The host
  operations before the region make those arrays from the arguments (a recast of the input to three axes, columns 0..5 of the
  points, columns 1..6 minus columns 0..5); the one after it recasts the output to four axes.
-/
import proofs.«146327_j84756884619350_2_alg».proof.Proof.Gen.KernelIdeal.Frame
import proofs.«146327_j84756884619350_2_alg».proof.Proof.HingeLaw
import Idealize.ShloMosaic.Lib.Pipeline.Value
import Idealize.ShloMosaic.Lib.ValueIdx
import Idealize.ShloMosaic.Lib.ValueLayout
import Idealize.ShloMosaic.Lib.StableHlo.Run

noncomputable section

namespace Cert.Pwlu.Ker

open Cert.KernelIdeal Cert.KernelIdeal.Gen Idealize.ShloMosaic Idealize.ShloMosaic.TcCoe Idealize.SL.Sem
open Idealize.ShloMosaic.ValueIdx
open Idealize.ShloMosaic.Pipeline (Dat)

/-! ## The body at an index -/

theorem hz3 : (![0, 0, 0] : Fin 3 → Nat) = fun _ => 0 := funext fun a => by fin_cases a <;> rfl

/-- A load of column r of a [256, 6] block reads, at row p, the block at (p, r). -/
theorem ld_col (X : Vec Ideal S256x6 .f32) (r : Nat) (inb : ∀ a, (![0, r] : Fin 2 → Nat) a + S256x1.size a ≤ S256x6.size a)
    (p : Fin 256) (z : Fin 1) (k : Fin 6) (hk : k.val = r) :
    View.ld X (Rect.unit (s := S256x6) ![0, r] S256x1.size inb) (ix2 p z) = X (ix2 p k) := by
  refine congrArg X (funext fun a => Fin.ext ?_)
  match a with
  | ⟨0, _⟩ => show 0 + 1 * p.val = p.val; omega
  | ⟨1, _⟩ => show r + 1 * z.val = k.val; have := z.isLt; omega

/-- A column spread along the rows: [256, 1] to [256, 3136]. -/
theorem bcol_apply (v : FVec Ideal S256x1 .f32) (h : S256x1.Broadcasts S256x3136) (p : Fin 256) (q : Fin 3136) :
    broadcastTo S256x3136 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- What the body stores at row p, lane q of its output block: the sum of clipped ramps of the normalized input there, over
    row p of the two tables. -/
theorem body_apply (x0 : Vec Ideal S1x256x3136 .f32) (x1 x2 : Vec Ideal S256x6 .f32) (u : Fin 1) (p : Fin 256) (q : Fin 3136) :
    out0_3 x0 x1 x2 (ix3 u p q)
      = hinge (xnorm (x0 (ix3 (0 : Fin 1) p q))) (x1 (ix2 p (0 : Fin 6))) (x2 (ix2 p (0 : Fin 6))) (x2 (ix2 p (1 : Fin 6)))
          (x2 (ix2 p (2 : Fin 6))) (x2 (ix2 p (3 : Fin 6))) (x2 (ix2 p (4 : Fin 6))) (x2 (ix2 p (5 : Fin 6))) := by
  unfold out0_3
  rw [View.canon_unit_zero hz3]
  simp only [View.ld_unit_zero (S := S1x256x3136) hz3]
  unfold k0_pay1 k0_pay3 k0_pay2
  simp only [shapeCast_ab_1ab_apply, addf_apply, mulf_apply, minimumf_apply, maximumf_apply, subf_apply, divf_apply,
    broadcast_apply, bcol_apply, shapeCast_self, shapeCast_1ab_ab_apply]
  have l0 : View.ld x1 r0_1 (ix2 p (0 : Fin 1)) = x1 (ix2 p (0 : Fin 6)) := ld_col x1 0 _ p 0 0 rfl
  have d0 : View.ld x2 r0_1 (ix2 p (0 : Fin 1)) = x2 (ix2 p (0 : Fin 6)) := ld_col x2 0 _ p 0 0 rfl
  have d1 : View.ld x2 r0_2 (ix2 p (0 : Fin 1)) = x2 (ix2 p (1 : Fin 6)) := ld_col x2 1 _ p 0 1 rfl
  have d2 : View.ld x2 r0_3 (ix2 p (0 : Fin 1)) = x2 (ix2 p (2 : Fin 6)) := ld_col x2 2 _ p 0 2 rfl
  have d3 : View.ld x2 r0_4 (ix2 p (0 : Fin 1)) = x2 (ix2 p (3 : Fin 6)) := ld_col x2 3 _ p 0 3 rfl
  have d4 : View.ld x2 r0_5 (ix2 p (0 : Fin 1)) = x2 (ix2 p (4 : Fin 6)) := ld_col x2 4 _ p 0 4 rfl
  have d5 : View.ld x2 r0_6 (ix2 p (0 : Fin 1)) = x2 (ix2 p (5 : Fin 6)) := ld_col x2 5 _ p 0 5 rfl
  rw [l0, d0, d1, d2, d3, d4, d5]
  rfl

/-- The same at any index of the block. -/
theorem body_at (x0 : Vec Ideal S1x256x3136 .f32) (x1 x2 : Vec Ideal S256x6 .f32) (y : S1x256x3136.Idx) :
    out0_3 x0 x1 x2 y
      = hinge (xnorm (x0 (ix3 (0 : Fin 1) ⟨(y 1).val, (y 1).isLt⟩ ⟨(y 2).val, (y 2).isLt⟩)))
          (x1 (ix2 ⟨(y 1).val, (y 1).isLt⟩ (0 : Fin 6))) (x2 (ix2 ⟨(y 1).val, (y 1).isLt⟩ (0 : Fin 6)))
          (x2 (ix2 ⟨(y 1).val, (y 1).isLt⟩ (1 : Fin 6))) (x2 (ix2 ⟨(y 1).val, (y 1).isLt⟩ (2 : Fin 6)))
          (x2 (ix2 ⟨(y 1).val, (y 1).isLt⟩ (3 : Fin 6))) (x2 (ix2 ⟨(y 1).val, (y 1).isLt⟩ (4 : Fin 6)))
          (x2 (ix2 ⟨(y 1).val, (y 1).isLt⟩ (5 : Fin 6))) := by
  obtain ⟨u, p, q, rfl⟩ : ∃ (u : Fin 1) (p : Fin 256) (q : Fin 3136), y = ix3 u p q := ⟨y 0, y 1, y 2, eq_ix3 y⟩
  exact body_apply x0 x1 x2 u p q

/-! ## From blocks to the array -/

variable (m : (ℓ : Loc nD τ sig) → Buf (Elt Ideal) ℓ) (ρ : Dev nD → PrngReg)

/-- The channel of an index of a [32, 256, 3136] array. -/
def chan (i : S32x256x3136.Idx) : Fin 256 := ⟨(i 1).val, (i 1).isLt⟩

/-- The region's output array as one function of the arrays it stages: entry i is the sum of clipped ramps of the normalized
    input entry i over row chan(i) of the two tables. -/
def K3 (a0 : FVec Ideal S32x256x3136 .f32) (a1 a2 : FVec Ideal S256x6 .f32) : FVec Ideal S32x256x3136 .f32 := fun i =>
  hinge (xnorm (a0 i)) (a1 (ix2 (chan i) (0 : Fin 6))) (a2 (ix2 (chan i) (0 : Fin 6))) (a2 (ix2 (chan i) (1 : Fin 6)))
    (a2 (ix2 (chan i) (2 : Fin 6))) (a2 (ix2 (chan i) (3 : Fin 6))) (a2 (ix2 (chan i) (4 : Fin 6))) (a2 (ix2 (chan i) (5 : Fin 6)))

/-- The printed index maps over the grid: the input and the output blocks sit at (b, 0, 0) at grid point b, the tables' at
    (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The input window's block at grid point t is batch entry t of the three-axis input. -/
theorem iblk0_apply (c : Dev nD) (t : Fin cfg0.N) (y : S1x256x3136.Idx) (k : S32x256x3136.Idx)
    (h0 : (k 0).val = t.val + (y 0).val) (h1 : (k 1).val = (y 1).val) (h2 : (k 2).val = (y 2).val) :
    (iblk m c 0 t : Vec Ideal S1x256x3136 .f32) y = (V m c main_v4 : S32x256x3136.Idx → Elt Ideal .f32) k := by
  obtain ⟨e0, e1, e2, -⟩ := idx_facts t
  unfold iblk
  rw [View.read_apply]
  show V m c main_v4 _ = V m c main_v4 _
  congr 1
  funext a
  apply Fin.ext
  match a with
  | ⟨0, _⟩ => show win0_0.index t 0 * 1 + 1 * (y 0).val = (k 0).val; rw [e0, h0]; omega
  | ⟨1, _⟩ => show win0_0.index t 1 * 256 + 1 * (y 1).val = (k 1).val; rw [e1, h1]; omega
  | ⟨2, _⟩ => show win0_0.index t 2 * 3136 + 1 * (y 2).val = (k 2).val; rw [e2, h2]; omega

/-- The left-point table's block is the whole table at every grid point. -/
theorem iblk1_apply (c : Dev nD) (t : Fin cfg0.N) (y : S256x6.Idx) :
    (iblk m c 1 t : Vec Ideal S256x6 .f32) y = (V m c main_v0 : S256x6.Idx → Elt Ideal .f32) y := by
  obtain ⟨-, -, -, e0, e1, -⟩ := idx_facts t
  unfold iblk
  rw [View.read_apply]
  show V m c main_v0 _ = V m c main_v0 _
  congr 1
  funext a
  apply Fin.ext
  match a with
  | ⟨0, _⟩ => show win0_1.index t 0 * 256 + 1 * (y 0).val = (y 0).val; rw [e0]; omega
  | ⟨1, _⟩ => show win0_1.index t 1 * 6 + 1 * (y 1).val = (y 1).val; rw [e1]; omega

/-- So is the rise table's. -/
theorem iblk2_apply (c : Dev nD) (t : Fin cfg0.N) (y : S256x6.Idx) :
    (iblk m c 2 t : Vec Ideal S256x6 .f32) y = (V m c main_v3 : S256x6.Idx → Elt Ideal .f32) y := by
  obtain ⟨-, -, -, -, -, e0, e1, -⟩ := idx_facts t
  unfold iblk
  rw [View.read_apply]
  show V m c main_v3 _ = V m c main_v3 _
  congr 1
  funext a
  apply Fin.ext
  match a with
  | ⟨0, _⟩ => show win0_2.index t 0 * 256 + 1 * (y 0).val = (y 0).val; rw [e0]; omega
  | ⟨1, _⟩ => show win0_2.index t 1 * 6 + 1 * (y 1).val = (y 1).val; rw [e1]; omega

/-- What grid point t writes back is block t of the one function. -/
theorem flushed_eq (c : Dev nD) (t : Fin cfg0.N) :
    (dats m 0 c).flushed 3 t = ((cfg0.win 3).blk t).view.read (Elt Ideal) (K3 (V m c main_v4) (V m c main_v0) (V m c main_v3)) := by
  obtain ⟨-, -, -, -, -, -, -, e0, e1, e2⟩ := idx_facts t
  show (cfg0.win 3).cut (grid0.coords t) ((dats m 0 c).after 3 t) = _
  rw [after0_3]
  funext j
  have hj0 : (j 0).val < 1 := (j 0).isLt
  have c0 : ((((cfg0.win 3).blk t).view.emb j) 0).val = t.val + 0 := by
    show win0_3.index t 0 * 1 + 1 * (j 0).val = t.val + 0; rw [e0]; omega
  have c1 : ((((cfg0.win 3).blk t).view.emb j) 1).val = (j 1).val := by
    show win0_3.index t 1 * 256 + 1 * (j 1).val = (j 1).val; rw [e1]; omega
  have c2 : ((((cfg0.win 3).blk t).view.emb j) 2).val = (j 2).val := by
    show win0_3.index t 2 * 3136 + 1 * (j 2).val = (j 2).val; rw [e2]; omega
  have hch : chan (((cfg0.win 3).blk t).view.emb j) = ⟨(j 1).val, (j 1).isLt⟩ := Fin.ext c1
  show out0_3 (iblk m c 0 t) (iblk m c 1 t) (iblk m c 2 t) j
    = K3 (V m c main_v4) (V m c main_v0) (V m c main_v3) (((cfg0.win 3).blk t).view.emb j)
  refine (body_at (iblk m c 0 t) (iblk m c 1 t) (iblk m c 2 t) j).trans ?_
  rw [iblk0_apply m c t (ix3 (0 : Fin 1) ⟨(j 1).val, (j 1).isLt⟩ ⟨(j 2).val, (j 2).isLt⟩) (((cfg0.win 3).blk t).view.emb j) c0 c1 c2,
    iblk1_apply m c t, iblk2_apply m c t, iblk2_apply m c t, iblk2_apply m c t, iblk2_apply m c t, iblk2_apply m c t, iblk2_apply m c t]
  show _ = hinge _ _ _ _ _ _ _ _
  rw [hch]

/-- An index of the output array is in grid point t's block iff each coordinate is in the block's range on its axis. -/
theorem mem_blk (t : Fin cfg0.N) (i : S32x256x3136.Idx) :
    i ∈ ((cfg0.win 3).blk t).view.set ↔ ∀ a : Fin 3, win0_3.index t a * S1x256x3136.size a ≤ (i a).val ∧ (i a).val < win0_3.index t a * S1x256x3136.size a + S1x256x3136.size a := by
  show i ∈ ((View.whole main_v5).slice (win0_3.rect t)).set ↔ _
  rw [View.set_slice_whole, Rect.mem_set_unit]
  exact Iff.rfl

/-- Every index of the output array is in the block of the grid point named by its batch coordinate. -/
theorem cover (i : S32x256x3136.Idx) : ∃ t : Fin cfg0.N, (cfg0.win 3).flush t = true ∧ i ∈ ((cfg0.win 3).blk t).view.set := by
  have hN : cfg0.N = 32 := N_0
  have hi0 : (i 0).val < 32 := (i 0).isLt
  have hi1 : (i 1).val < 256 := (i 1).isLt
  have hi2 : (i 2).val < 3136 := (i 2).isLt
  refine ⟨⟨(i 0).val, by omega⟩, flush0_3 _, ?_⟩
  obtain ⟨-, -, -, -, -, -, -, e0, e1, e2⟩ := idx_facts ⟨(i 0).val, by omega⟩
  rw [mem_blk]
  intro a
  match a with
  | ⟨0, _⟩ => show win0_3.index _ 0 * 1 ≤ (i 0).val ∧ (i 0).val < win0_3.index _ 0 * 1 + 1; rw [e0]; show (i 0).val * 1 ≤ (i 0).val ∧ (i 0).val < (i 0).val * 1 + 1; omega
  | ⟨1, _⟩ => show win0_3.index _ 1 * 256 ≤ (i 1).val ∧ (i 1).val < win0_3.index _ 1 * 256 + 256; rw [e1]; omega
  | ⟨2, _⟩ => show win0_3.index _ 2 * 3136 ≤ (i 2).val ∧ (i 2).val < win0_3.index _ 2 * 3136 + 3136; rw [e2]; omega

/-- The region's output array after the run. -/
theorem final (c : Dev nD) : (dats m 0 c).arrAt 3 cfg0.N = K3 (V m c main_v4) (V m c main_v0) (V m c main_v3) :=
  (dats m 0 c).arrAt_eq_of_cover 3 (K3 (V m c main_v4) (V m c main_v0) (V m c main_v3)) (fun t _ => flushed_eq m c t) cover

/-! ## The arrays the region stages, from the arguments -/

/-- The three-axis input the region reads is the argument recast. -/
theorem V_v4 (c : Dev nD) : (V m c main_v4 : S32x256x3136.Idx → Elt Ideal .f32)
    = shapeCast S32x256x3136 (m ((c : Thread nD τ).loc main_arg0) : S32x256x56x56.Idx → Elt Ideal .f32) shapeCasts_S32x256x56x56_S32x256x3136 := by
  show StableHlo.after hostOps0 (fun b => m (c, b)) (Proc.devRef .tc main_v4) = _
  after_results
  rfl

/-- The left-point table is columns 0..5 of the points. -/
theorem V_v0 (c : Dev nD) : (V m c main_v0 : S256x6.Idx → Elt Ideal .f32)
    = extractStridedSlice S256x6 ![0, 0] (m ((c : Thread nD τ).loc main_arg1) : S256x7.Idx → Elt Ideal .f32) slices_S256x7_S256x6_0_0 := by
  show StableHlo.after hostOps0 (fun b => m (c, b)) (Proc.devRef .tc main_v0) = _
  after_results

/-- The rise table is columns 1..6 minus columns 0..5 of the points. -/
theorem V_v3 (c : Dev nD) : (V m c main_v3 : S256x6.Idx → Elt Ideal .f32)
    = subf (F := Ideal) (φ := .f32) (extractStridedSlice S256x6 ![0, 1] (m ((c : Thread nD τ).loc main_arg1) : FVec Ideal S256x7 .f32) slices_S256x7_S256x6_0_1)
        (extractStridedSlice S256x6 ![0, 0] (m ((c : Thread nD τ).loc main_arg1) : FVec Ideal S256x7 .f32) slices_S256x7_S256x6_0_0) := by
  show StableHlo.after hostOps0 (fun b => m (c, b)) (Proc.devRef .tc main_v3) = _
  after_results
  try rfl

/-! ## The result: the host operation after the region -/

/-- The kernel program's result as one function of the two arguments. -/
def kout (x : FVec Ideal S32x256x56x56 .f32) (pts : FVec Ideal S256x7 .f32) : FVec Ideal S32x256x56x56 .f32 :=
  shapeCast S32x256x56x56
    (K3 (shapeCast S32x256x3136 x shapeCasts_S32x256x56x56_S32x256x3136)
      (extractStridedSlice S256x6 ![0, 0] pts slices_S256x7_S256x6_0_0)
      (subf (extractStridedSlice S256x6 ![0, 1] pts slices_S256x7_S256x6_0_1) (extractStridedSlice S256x6 ![0, 0] pts slices_S256x7_S256x6_0_0)))
    shapeCasts_S32x256x3136_S32x256x56x56

/-- After the region the result buffer is the region's output array recast to four axes. -/
theorem tail_v6 (c : Dev nD) :
    (Pipeline.afterTail₀ cfgs (dats m) 0 (V0 m) [hostOps1] c main_v6 : S32x256x56x56.Idx → Elt Ideal .f32)
      = kout (m ((c : Thread nD τ).loc main_arg0)) (m ((c : Thread nD τ).loc main_arg1)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 3 cfg0.N := Pipeline.withArrays_arr spec0 launch0.win.arr_inj c _ _ 3
  rw [e, final, V_v4, V_v0, V_v3]
  rfl

/-- Every weakly fair execution of the kernel program terminates with its result at that function of the arguments as
    launched, and the arguments unchanged. -/
theorem run : θ_run defs (onTc (τ := τ) (main (F := Ideal))) ⟨m, fun _ => 0, ρ⟩ fun r => ∀ c : Dev nD,
      r.2.mem ((c.tc : Thread nD τ).loc main_v6) = kout (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (Pipeline.mem_restRefs_of main_v6 (by decide) (by decide))).trans (tail_v6 m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

/-! ## The result at an index -/

/-- The kernel program's result at (b, c, h, w): the sum of clipped ramps of the normalized input there over the channel's
    points, the rises being differences of neighbouring points. -/
theorem kout_apply (x : FVec Ideal S32x256x56x56 .f32) (pts : FVec Ideal S256x7 .f32)
    (b : Fin 32) (c : Fin 256) (h : Fin 56) (w : Fin 56) :
    kout x pts (ix4 b c h w)
      = hinge (xnorm (x (ix4 b c h w))) (pts (ix2 c (0 : Fin 7)))
          (pts (ix2 c (1 : Fin 7)) - pts (ix2 c (0 : Fin 7))) (pts (ix2 c (2 : Fin 7)) - pts (ix2 c (1 : Fin 7)))
          (pts (ix2 c (3 : Fin 7)) - pts (ix2 c (2 : Fin 7))) (pts (ix2 c (4 : Fin 7)) - pts (ix2 c (3 : Fin 7)))
          (pts (ix2 c (5 : Fin 7)) - pts (ix2 c (4 : Fin 7))) (pts (ix2 c (6 : Fin 7)) - pts (ix2 c (5 : Fin 7))) := by
  have hh := h.isLt
  have hw := w.isLt
  unfold kout
  rw [shapeCast_apply _ _ _ (ix3 b c (⟨h.val * 56 + w.val, by omega⟩ : Fin 3136)) (by
    rw [Shape.rowMajor_val_three, Shape.rowMajor_val_four]
    show (b.val * 256 + c.val) * 3136 + (h.val * 56 + w.val) = ((b.val * 256 + c.val) * 56 + h.val) * 56 + w.val
    omega)]
  show hinge (xnorm (shapeCast S32x256x3136 x shapeCasts_S32x256x56x56_S32x256x3136 (ix3 b c (⟨h.val * 56 + w.val, by omega⟩ : Fin 3136))))
      (extractStridedSlice S256x6 ![0, 0] pts slices_S256x7_S256x6_0_0 (ix2 c (0 : Fin 6)))
      (subf (extractStridedSlice S256x6 ![0, 1] pts slices_S256x7_S256x6_0_1) (extractStridedSlice S256x6 ![0, 0] pts slices_S256x7_S256x6_0_0) (ix2 c (0 : Fin 6)))
      (subf (extractStridedSlice S256x6 ![0, 1] pts slices_S256x7_S256x6_0_1) (extractStridedSlice S256x6 ![0, 0] pts slices_S256x7_S256x6_0_0) (ix2 c (1 : Fin 6)))
      (subf (extractStridedSlice S256x6 ![0, 1] pts slices_S256x7_S256x6_0_1) (extractStridedSlice S256x6 ![0, 0] pts slices_S256x7_S256x6_0_0) (ix2 c (2 : Fin 6)))
      (subf (extractStridedSlice S256x6 ![0, 1] pts slices_S256x7_S256x6_0_1) (extractStridedSlice S256x6 ![0, 0] pts slices_S256x7_S256x6_0_0) (ix2 c (3 : Fin 6)))
      (subf (extractStridedSlice S256x6 ![0, 1] pts slices_S256x7_S256x6_0_1) (extractStridedSlice S256x6 ![0, 0] pts slices_S256x7_S256x6_0_0) (ix2 c (4 : Fin 6)))
      (subf (extractStridedSlice S256x6 ![0, 1] pts slices_S256x7_S256x6_0_1) (extractStridedSlice S256x6 ![0, 0] pts slices_S256x7_S256x6_0_0) (ix2 c (5 : Fin 6)))
    = _
  rw [shapeCast_apply x _ _ (ix4 b c h w) (by
    rw [Shape.rowMajor_val_three, Shape.rowMajor_val_four]
    show ((b.val * 256 + c.val) * 56 + h.val) * 56 + w.val = (b.val * 256 + c.val) * 3136 + (h.val * 56 + w.val)
    omega)]
  simp only [subf_apply]
  rw [slice2_axis1_apply 0 pts _ c (0 : Fin 6) (0 : Fin 7) rfl, slice2_axis1_apply 0 pts _ c (1 : Fin 6) (1 : Fin 7) rfl,
    slice2_axis1_apply 0 pts _ c (2 : Fin 6) (2 : Fin 7) rfl, slice2_axis1_apply 0 pts _ c (3 : Fin 6) (3 : Fin 7) rfl,
    slice2_axis1_apply 0 pts _ c (4 : Fin 6) (4 : Fin 7) rfl, slice2_axis1_apply 0 pts _ c (5 : Fin 6) (5 : Fin 7) rfl,
    slice2_axis1_apply 1 pts _ c (0 : Fin 6) (1 : Fin 7) rfl, slice2_axis1_apply 1 pts _ c (1 : Fin 6) (2 : Fin 7) rfl,
    slice2_axis1_apply 1 pts _ c (2 : Fin 6) (3 : Fin 7) rfl, slice2_axis1_apply 1 pts _ c (3 : Fin 6) (4 : Fin 7) rfl,
    slice2_axis1_apply 1 pts _ c (4 : Fin 6) (5 : Fin 7) rfl, slice2_axis1_apply 1 pts _ c (5 : Fin 6) (6 : Fin 7) rfl]

end Cert.Pwlu.Ker

end
-- ==== Proof.Finite.lean ====
import proofs.«146327_j84756884619350_2_alg».proof.Pre_finite_inputs
import proofs.«146327_j84756884619350_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
noncomputable section
namespace Cert.Pwlu.Finite
open Idealize.ShloMosaic

/-- The binary32 pattern with exponent field all ones and zero fraction, sign clear, is +∞. -/
theorem ofBits_inf : Ideal.ofBits .f32 0x7F800000#32 = (⊤ : EReal) := by
  simp [Ideal.ofBits, Ideal.ieee]

/-- An extended real whose absolute value max a (-a) is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The element fact: the ordered comparison |a| < +∞ holding says a is a real number. -/
theorem real_of_cmp (a : Ideal .f32)
    (h : Ideal.cmp .olt (max a (-a)) (Ideal.ofBits .f32 0x7F800000#32) = 1#1) :
    ∃ r : ℝ, a = (r : EReal) := by
  rw [ofBits_inf] at h
  apply real_of_abs_lt_top
  by_contra hn
  simp [Ideal.cmp, hn] at h

/-- The scalar shape has one index. -/
instance subsingleton_scalar_idx : Subsingleton Cert.Pre_finite_inputs.S_.Idx := ⟨fun a b => funext fun d => d.elim0⟩

theorem reals_of_pre (x : FVec Ideal Cert.Pre_finite_inputs.S32x256x56x56 .f32) (pts : FVec Ideal Cert.Pre_finite_inputs.S256x7 .f32)
    (h : Cert.Pre_finite_inputs.fn (F := Ideal) x pts = fun _ => 1#1) :
    (∀ i, ∃ r : ℝ, x i = (r : EReal)) ∧ (∀ j, ∃ r : ℝ, pts j = (r : EReal)) := by
  have e := congrFun h ValueIdx.ix0
  unfold Cert.Pre_finite_inputs.fn at e
  dsimp only [andi] at e
  obtain ⟨e1, e2⟩ := IntOp.andi_eq_one.1 e
  refine ⟨fun i => ?_, fun j => ?_⟩
  · have hi := Host.reduce_andi_all _ _ _ _ _ e1 i
    exact real_of_cmp (x i) hi
  · have hj := Host.reduce_andi_all _ _ _ _ _ e2 j
    exact real_of_cmp (pts j) hj

end Cert.Pwlu.Finite
end
-- ==== Proof.lean ====
/-
  The certificate. The kernel program computes, entry by entry, a sum of clipped ramps of the normalized input over its
  channel's points; the reference picks the bin of the normalized input by truncation and interpolates linearly inside it
  from two tables it looks up by a flattened index. With finite inputs the two are one function: in bin k the ramps before
  k are saturated, ramp k is the distance into the bin, the ramps after k vanish, and the rises telescope to the bin's left
  point. Each program's run is read back as one function of the two argument arrays (the kernel's through the blocks its
  grid points write back and the host operations around the region, the reference's through its straight line of host
  operations), and the two functions are compared index by index. The kernel was not rewritten when it was idealized, so
  there is nothing to preserve; the three frames are the runs with their results dropped.
-/
import proofs.«146327_j84756884619350_2_alg».proof.Defs
import proofs.«146327_j84756884619350_2_alg».proof.Proof.Gen.Kernel
import proofs.«146327_j84756884619350_2_alg».proof.Proof.Gen.Kernel.Frame
import proofs.«146327_j84756884619350_2_alg».proof.Proof.Gen.KernelIdeal
import proofs.«146327_j84756884619350_2_alg».proof.Proof.Gen.KernelIdeal.Frame
import proofs.«146327_j84756884619350_2_alg».proof.Proof.Gen.ReferenceIdeal
import proofs.«146327_j84756884619350_2_alg».proof.Proof.Gen.Pre_finite_inputs
import proofs.«146327_j84756884619350_2_alg».proof.Proof.RefRun
import proofs.«146327_j84756884619350_2_alg».proof.Proof.RefValue
import proofs.«146327_j84756884619350_2_alg».proof.Proof.RefPoint
import proofs.«146327_j84756884619350_2_alg».proof.Proof.KerValue
import proofs.«146327_j84756884619350_2_alg».proof.Proof.Finite
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.Pwlu.Ref.run (F := Ideal) m ρ)

theorem preserves : Cert.preserves_Kernel_KernelIdeal := trivial

/-- With finite inputs the two programs' results are one function of the arguments: at every index both are the sum of
    clipped ramps of the normalized input over the channel's points. -/
theorem results_eq (x : FVec Ideal Cert.KernelIdeal.S32x256x56x56 .f32) (pts : FVec Ideal Cert.KernelIdeal.S256x7 .f32)
    (hx : ∀ i, ∃ r : ℝ, x i = (r : EReal)) (hp : ∀ j, ∃ r : ℝ, pts j = (r : EReal)) :
    Cert.Pwlu.Ref.out x pts = Cert.Pwlu.Ker.kout x pts := by
  funext i
  obtain ⟨b, c, h, w, rfl⟩ : ∃ (b : Fin 32) (c : Fin 256) (h : Fin 56) (w : Fin 56), i = ix4 b c h w :=
    ⟨i 0, i 1, i 2, i 3, eq_ix4 i⟩
  exact (Cert.Pwlu.Ref.out_apply x pts hx hp b c h w).trans (Cert.Pwlu.Ker.kout_apply x pts b c h w).symm

theorem algebraic : Cert.algebraic_KernelIdeal_ReferenceIdeal := by
  intro m ρ m' ρ' hpre hagree
  refine ⟨fun c => Cert.Pwlu.Ker.kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.Pwlu.Ker.run m ρ, ?_⟩
  refine (θ_run Cert.ReferenceIdeal.defs _ _).mono (fun _ h c => ⟨(h c).1.trans ?_, (h c).2⟩)
    (Cert.Pwlu.Ref.run (F := Ideal) m' ρ')
  obtain ⟨hx, hp⟩ := Cert.Pwlu.Finite.reals_of_pre _ _ (hpre c)
  rw [(hagree c).1, (hagree c).2]
  exact results_eq _ _ hx hp

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
